-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x300 : Shape := ⟨2, ![256, 300]⟩
abbrev S256x512x300 : Shape := ⟨3, ![256, 512, 300]⟩
abbrev S256 : Shape := ⟨1, ![256]⟩
abbrev S300x600 : Shape := ⟨2, ![300, 600]⟩
abbrev S600 : Shape := ⟨1, ![600]⟩
abbrev S600x300 : Shape := ⟨2, ![600, 300]⟩
abbrev S300 : Shape := ⟨1, ![300]⟩
abbrev S_ : Shape := ⟨0, ![]⟩

class Facts : Prop where
  bcast_S_S256x300 : S_.BroadcastsInDim S256x300 (![] : Fin 0 → Fin S256x300.rank)
  reducesTo_S256x300_S_d0_1 : S256x300.ReducesTo [0, 1] S_
  h_S_ : 0 < S_.numel
  bcast_S_S256x512x300 : S_.BroadcastsInDim S256x512x300 (![] : Fin 0 → Fin S256x512x300.rank)
  reducesTo_S256x512x300_S_d0_1_2 : S256x512x300.ReducesTo [0, 1, 2] S_
  bcast_S_S300x600 : S_.BroadcastsInDim S300x600 (![] : Fin 0 → Fin S300x600.rank)
  reducesTo_S300x600_S_d0_1 : S300x600.ReducesTo [0, 1] S_
  bcast_S_S600 : S_.BroadcastsInDim S600 (![] : Fin 0 → Fin S600.rank)
  reducesTo_S600_S_d0 : S600.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg5 : FVec F S600x300 .f32) (main_arg6 : FVec F S300 .f32) (main_v13 : IVec S_ 1) (main_v16 : IVec S600 1) : IVec S_ 1 :=
  let main_c_5 : IVec S_ 1 := constantI S_ 1 1#1
  let main_v17 : IVec S_ 1 := (fun x v => Host.reduce IntOp.andi x v reducesTo_S600_S_d0 h_S_) main_v16 main_c_5
  let main_v18 : IVec S_ 1 := andi main_v13 main_v17
  let main_v19 : FVec F S600x300 .f32 := Host.absf main_arg5
  let main_cst_6 : FVec F S_ .f32 := constant S_ .f32 0x7F800000#32
  let main_v20 : FVec F S600x300 .f32 := broadcastInDim S600x300 ![] bcast_S_S600x300 main_cst_6
  let main_v21 : IVec S600x300 1 := cmpf .olt main_v19 main_v20
  let main_c_7 : IVec S_ 1 := constantI S_ 1 1#1
  let main_v22 : IVec S_ 1 := (fun x v => Host.reduce IntOp.andi x v reducesTo_S600x300_S_d0_1 h_S_) main_v21 main_c_7
  let main_v23 : IVec S_ 1 := andi main_v18 main_v22
  let main_v24 : FVec F S300 .f32 := Host.absf main_arg6
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S256x300 .f32) (main_arg1 : FVec F S256x512x300 .f32) (main_arg2 : IVec S256 32) (main_arg3 : FVec F S300x600 .f32) (main_arg4 : FVec F S600 .f32) (main_arg5 : FVec F S600x300 .f32) (main_arg6 : FVec F S300 .f32) : IVec S_ 1 :=
  let main_v0 : FVec F S256x300 .f32 := Host.absf main_arg0
  let main_cst : FVec F S_ .f32 := constant S_ .f32 0x7F800000#32
  let main_v1 : FVec F S256x300 .f32 := broadcastInDim S256x300 ![] bcast_S_S256x300 main_cst
  let main_v2 : IVec S256x300 1 := cmpf .olt main_v0 main_v1
  let main_c : IVec S_ 1 := constantI S_ 1 1#1
  let main_v3 : IVec S_ 1 := (fun x v => Host.reduce IntOp.andi x v reducesTo_S256x300_S_d0_1 h_S_) main_v2 main_c
  let main_v4 : FVec F S256x512x300 .f32 := Host.absf main_arg1
  let main_cst_0 : FVec F S_ .f32 := constant S_ .f32 0x7F800000#32
  let main_v5 : FVec F S256x512x300 .f32 := broadcastInDim S256x512x300 ![] bcast_S_S256x512x300 main_cst_0
  let main_v6 : IVec S256x512x300 1 := cmpf .olt main_v4 main_v5
  let main_c_1 : IVec S_ 1 := constantI S_ 1 1#1
  let main_v7 : IVec S_ 1 := (fun x v => Host.reduce IntOp.andi x v reducesTo_S256x512x300_S_d0_1_2 h_S_) main_v6 main_c_1
  let main_v8 : IVec S_ 1 := andi main_v3 main_v7
  let main_v9 : FVec F S300x600 .f32 := Host.absf main_arg3
  let main_cst_2 : FVec F S_ .f32 := constant S_ .f32 0x7F800000#32
  let main_v10 : FVec F S300x600 .f32 := broadcastInDim S300x600 ![] bcast_S_S300x600 main_cst_2
  let main_v11 : IVec S300x600 1 := cmpf .olt main_v9 main_v10
  let main_c_3 : IVec S_ 1 := constantI S_ 1 1#1
  let main_v12 : IVec S_ 1 := (fun x v => Host.reduce IntOp.andi x v reducesTo_S300x600_S_d0_1 h_S_) main_v11 main_c_3
  let main_v13 : IVec S_ 1 := andi main_v8 main_v12
  let main_v14 : FVec F S600 .f32 := Host.absf main_arg4
  let main_cst_4 : FVec F S_ .f32 := constant S_ .f32 0x7F800000#32
  let main_v15 : FVec F S600 .f32 := broadcastInDim S600 ![] bcast_S_S600 main_cst_4
  let main_v16 : IVec S600 1 := cmpf .olt main_v14 main_v15
  fn_part1 (F := F) main_arg5 main_arg6 main_v13 main_v16
-- ==== Kernel.lean ====
abbrev S256x300 : Shape := ⟨2, ![256, 300]⟩
abbrev S256x512x300 : Shape := ⟨3, ![256, 512, 300]⟩
abbrev S256 : Shape := ⟨1, ![256]⟩
abbrev S300x600 : Shape := ⟨2, ![300, 600]⟩
abbrev S600 : Shape := ⟨1, ![600]⟩
abbrev S600x300 : Shape := ⟨2, ![600, 300]⟩
abbrev S300 : Shape := ⟨1, ![300]⟩
abbrev S_ : Shape := ⟨0, ![]⟩
abbrev S512 : Shape := ⟨1, ![512]⟩
abbrev S1x512 : Shape := ⟨2, ![1, 512]⟩
abbrev S256x1 : Shape := ⟨2, ![256, 1]⟩
abbrev S256x512 : Shape := ⟨2, ![256, 512]⟩
abbrev S256x512x1 : Shape := ⟨3, ![256, 512, 1]⟩
abbrev S1x600 : Shape := ⟨2, ![1, 600]⟩
abbrev S1x300 : Shape := ⟨2, ![1, 300]⟩
abbrev S128x64x300 : Shape := ⟨3, ![128, 64, 300]⟩
abbrev S128x64x1 : Shape := ⟨3, ![128, 64, 1]⟩
abbrev S128x300 : Shape := ⟨2, ![128, 300]⟩
abbrev S128x1 : Shape := ⟨2, ![128, 1]⟩
abbrev S128x600 : Shape := ⟨2, ![128, 600]⟩
abbrev S8192x300 : Shape := ⟨2, ![8192, 300]⟩
abbrev S8192x600 : Shape := ⟨2, ![8192, 600]⟩
abbrev S128x64x600 : Shape := ⟨3, ![128, 64, 600]⟩

abbrev nBuf : Space → Nat
  | .hbm => 27
  | .vmem => 15
  | .smem => 0
  | _ => 0

abbrev bufTy : (tb : Table) → Fin (tcTables nBuf tb) → BufTy
  | .hbm, ⟨0, _⟩ => ⟨S256x300, .f32⟩
  | .hbm, ⟨1, _⟩ => ⟨S256x512x300, .f32⟩
  | .hbm, ⟨2, _⟩ => ⟨S256, .i32⟩
  | .hbm, ⟨3, _⟩ => ⟨S300x600, .f32⟩
  | .hbm, ⟨4, _⟩ => ⟨S600, .f32⟩
  | .hbm, ⟨5, _⟩ => ⟨S600x300, .f32⟩
  | .hbm, ⟨6, _⟩ => ⟨S300, .f32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S512, .i32⟩
  | .hbm, ⟨11, _⟩ => ⟨S1x512, .i32⟩
  | .hbm, ⟨12, _⟩ => ⟨S256x1, .i32⟩
  | .hbm, ⟨13, _⟩ => ⟨S256x512, .i32⟩
  | .hbm, ⟨14, _⟩ => ⟨S256x512, .i32⟩
  | .hbm, ⟨15, _⟩ => ⟨S256x512, .i1⟩
  | .hbm, ⟨16, _⟩ => ⟨S256x512, .f32⟩
  | .hbm, ⟨17, _⟩ => ⟨S256x512x1, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S1x600, .f32⟩
  | .hbm, ⟨24, _⟩ => ⟨S1x300, .f32⟩
  | .hbm, ⟨25, _⟩ => ⟨S300x600, .bf16⟩
  | .hbm, ⟨26, _⟩ => ⟨S256x300, .f32⟩
  | .local _ .vmem, ⟨0, _⟩ => ⟨S128x64x300, .f32⟩
  | .local _ .vmem, ⟨1, _⟩ => ⟨S128x64x300, .f32⟩
  | .local _ .vmem, ⟨2, _⟩ => ⟨S128x64x1, .f32⟩
  | .local _ .vmem, ⟨3, _⟩ => ⟨S128x64x1, .f32⟩
  | .local _ .vmem, ⟨4, _⟩ => ⟨S128x300, .f32⟩
  | .local _ .vmem, ⟨5, _⟩ => ⟨S128x300, .f32⟩
  | .local _ .vmem, ⟨6, _⟩ => ⟨S128x1, .f32⟩
  | .local _ .vmem, ⟨7, _⟩ => ⟨S128x1, .f32⟩
  | .local _ .vmem, ⟨8, _⟩ => ⟨S300x600, .bf16⟩
  | .local _ .vmem, ⟨9, _⟩ => ⟨S1x600, .f32⟩
  | .local _ .vmem, ⟨10, _⟩ => ⟨S600x300, .f32⟩
  | .local _ .vmem, ⟨11, _⟩ => ⟨S1x300, .f32⟩
  | .local _ .vmem, ⟨12, _⟩ => ⟨S128x300, .f32⟩
  | .local _ .vmem, ⟨13, _⟩ => ⟨S128x300, .f32⟩
  | .local _ .vmem, ⟨14, _⟩ => ⟨S128x600, .f32⟩
  | _, _ => ⟨S256x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_16 : BitVec 32 := 0#32
  let v28 : BitVec 1 := Scalar.cmpi .ne v27 c0_i32_16
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S300x600 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S600x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x300 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S256 : S_.BroadcastsInDim S256 (![] : Fin 0 → Fin S256.rank)
  bcast_S512_S1x512_1 : S512.BroadcastsInDim S1x512 (![1] : Fin 1 → Fin S1x512.rank)
  bcast_S256_S256x1_0 : S256.BroadcastsInDim S256x1 (![0] : Fin 1 → Fin S256x1.rank)
  bcast_S1x512_S256x512_0_1 : S1x512.BroadcastsInDim S256x512 (![0, 1] : Fin 2 → Fin S256x512.rank)
  bcast_S256x1_S256x512_0_1 : S256x1.BroadcastsInDim S256x512 (![0, 1] : Fin 2 → Fin S256x512.rank)
  bcast_S256x512_S256x512x1_0_1 : S256x512.BroadcastsInDim S256x512x1 (![0, 1] : Fin 2 → Fin S256x512x1.rank)
  shapeCasts_S600_S1x600 : S600.ShapeCasts S1x600
  shapeCasts_S300_S1x300 : S300.ShapeCasts S1x300
  bitsLt_bf16_f32 : FTy.bits .bf16 < FTy.bits .f32
  inb_S128x600_S128x600_0_0 : ∀ a, (![0, 0] : Fin 2 → Nat) a + S128x600.size a ≤ S128x600.size a
  h_S128x600 : 0 < S128x600.numel
  shapeCasts_S128x600_S128x600 : S128x600.ShapeCasts S128x600
  inb_S128x64x300_S128x64x300_0_0_0 : ∀ a, (![0, 0, 0] : Fin 3 → Nat) a + S128x64x300.size a ≤ S128x64x300.size a
  h_S128x64x300 : 0 < S128x64x300.numel
  shapeCasts_S128x64x300_S8192x300 : S128x64x300.ShapeCasts S8192x300
  inb_S300x600_S300x600_0_0 : ∀ a, (![0, 0] : Fin 2 → Nat) a + S300x600.size a ≤ S300x600.size a
  h_S300x600 : 0 < S300x600.numel
  shapeCasts_S300x600_S300x600 : S300x600.ShapeCasts S300x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S8192x600 : S1x600.Broadcasts S8192x600
  shapeCasts_S8192x600_S128x64x600 : S8192x600.ShapeCasts S128x64x600
  inb_S128x64x1_S128x64x1_0_0_0 : ∀ a, (![0, 0, 0] : Fin 3 → Nat) a + S128x64x1.size a ≤ S128x64x1.size a
  h_S128x64x1 : 0 < S128x64x1.numel
  shapeCasts_S128x64x1_S128x64x1 : S128x64x1.ShapeCasts S128x64x1
  broadcasts_S128x64x1_S128x64x600 : S128x64x1.Broadcasts S128x64x600
  reduces_S128x64x600_S128x600 : S128x64x600.Reduces [1] S128x600
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x600 : S128x1.Broadcasts S128x600
  inb_S600x300_S600x300_0_0 : ∀ a, (![0, 0] : Fin 2 → Nat) a + S600x300.size a ≤ S600x300.size a
  h_S600x300 : 0 < S600x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S128x300 : S1x300.Broadcasts S128x300
  inb_S128x300_S128x300_0_0 : ∀ a, (![0, 0] : Fin 2 → Nat) a + S128x300.size a ≤ S128x300.size a
  h_S128x300 : 0 < S128x300.numel
  dot_S8192x300_S300x600_S8192x600_1_0_0_1_n_n_wf : DotDims.WF S8192x300 S300x600 S8192x600 [1] [0] [0] [1] [] []
  dot_S128x600_S600x300_S128x300_1_0_0_1_n_n_wf : DotDims.WF S128x600 S600x300 S128x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x300.size a ≤ S256x512x300.size a
  hwx0_0 : ∀ i : grid0.Coords, EltTy.bits .f32 = 32 ∨ (Rect.block (s := S256x512x300) S128x64x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x1.size a ≤ S256x512x1.size a
  hwx0_1 : ∀ i : grid0.Coords, EltTy.bits .f32 = 32 ∨ (Rect.block (s := S256x512x1) S128x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x300.size a ≤ S256x300.size a
  hwx0_2 : ∀ i : grid0.Coords, EltTy.bits .f32 = 32 ∨ (Rect.block (s := S256x300) S128x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S256x1.size a
  hwx0_3 : ∀ i : grid0.Coords, EltTy.bits .f32 = 32 ∨ (Rect.block (s := S256x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x600.size a ≤ S300x600.size a
  hwx0_4 : ∀ i : grid0.Coords, EltTy.bits .bf16 = 32 ∨ (Rect.block (s := S300x600) S300x600.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x600.size a ≤ S1x600.size a
  hwx0_5 : ∀ i : grid0.Coords, EltTy.bits .f32 = 32 ∨ (Rect.block (s := S1x600) S1x600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S600x300.size a ≤ S600x300.size a
  hwx0_6 : ∀ i : grid0.Coords, EltTy.bits .f32 = 32 ∨ (Rect.block (s := S600x300) S600x300.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x300.size a ≤ S1x300.size a
  hwx0_7 : ∀ i : grid0.Coords, EltTy.bits .f32 = 32 ∨ (Rect.block (s := S1x300) S1x300.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x300.size a ≤ S256x300.size a
  hwx0_8 : ∀ i : grid0.Coords, EltTy.bits .f32 = 32 ∨ (Rect.block (s := S256x300) S128x300.size (cc0_transform_8 i) (hinb0_8 i)).WholeWords (EltTy.packing .f32)

variable [Facts₀]

def dot_S8192x300_S300x600_S8192x600_1_0_0_1_n_n : DotDims S8192x300 S300x600 S8192x600 where
  lhsContracting := [1]
  rhsContracting := [0]
  lhsNonContracting := [0]
  rhsNonContracting := [1]
  lhsBatch := []
  rhsBatch := []
  wf := dot_S8192x300_S300x600_S8192x600_1_0_0_1_n_n_wf
def dot_S128x600_S600x300_S128x300_1_0_0_1_n_n : DotDims S128x600 S600x300 S128x300 where
  lhsContracting := [1]
  rhsContracting := [0]
  lhsNonContracting := [0]
  rhsNonContracting := [1]
  lhsBatch := []
  rhsBatch := []
  wf := dot_S128x600_S600x300_S128x300_1_0_0_1_n_n_wf

abbrev win0_0 : Pipeline.Window sig grid0 :=
  Pipeline.Window.ofSpec (Memref.whole main_arg1) S128x64x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S300x600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x600.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S600x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x300.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S128x300.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S256x300 : Shape := ⟨2, ![256, 300]⟩
abbrev S256x512x300 : Shape := ⟨3, ![256, 512, 300]⟩
abbrev S256 : Shape := ⟨1, ![256]⟩
abbrev S300x600 : Shape := ⟨2, ![300, 600]⟩
abbrev S600 : Shape := ⟨1, ![600]⟩
abbrev S600x300 : Shape := ⟨2, ![600, 300]⟩
abbrev S300 : Shape := ⟨1, ![300]⟩
abbrev S_ : Shape := ⟨0, ![]⟩
abbrev S512 : Shape := ⟨1, ![512]⟩
abbrev S1x512 : Shape := ⟨2, ![1, 512]⟩
abbrev S256x1 : Shape := ⟨2, ![256, 1]⟩
abbrev S256x512 : Shape := ⟨2, ![256, 512]⟩
abbrev S256x512x1 : Shape := ⟨3, ![256, 512, 1]⟩
abbrev S256x512x600 : Shape := ⟨3, ![256, 512, 600]⟩
abbrev S1x1x600 : Shape := ⟨3, ![1, 1, 600]⟩
abbrev S256x600 : Shape := ⟨2, ![256, 600]⟩
abbrev S1x300 : Shape := ⟨2, ![1, 300]⟩

abbrev nBuf : Space → Nat
  | .hbm => 46
  | .vmem => 0
  | .smem => 0
  | _ => 0

abbrev bufTy : (tb : Table) → Fin (tcTables nBuf tb) → BufTy
  | .hbm, ⟨0, _⟩ => ⟨S256x300, .f32⟩
  | .hbm, ⟨1, _⟩ => ⟨S256x512x300, .f32⟩
  | .hbm, ⟨2, _⟩ => ⟨S256, .i32⟩
  | .hbm, ⟨3, _⟩ => ⟨S300x600, .f32⟩
  | .hbm, ⟨4, _⟩ => ⟨S600, .f32⟩
  | .hbm, ⟨5, _⟩ => ⟨S600x300, .f32⟩
  | .hbm, ⟨6, _⟩ => ⟨S300, .f32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S512, .i32⟩
  | .hbm, ⟨11, _⟩ => ⟨S1x512, .i32⟩
  | .hbm, ⟨12, _⟩ => ⟨S256x1, .i32⟩
  | .hbm, ⟨13, _⟩ => ⟨S256x512, .i32⟩
  | .hbm, ⟨14, _⟩ => ⟨S256x512, .i32⟩
  | .hbm, ⟨15, _⟩ => ⟨S256x512, .i1⟩
  | .hbm, ⟨16, _⟩ => ⟨S256x512x1, .i1⟩
  | .hbm, ⟨17, _⟩ => ⟨S256x512x1, .f32⟩
  | .hbm, ⟨18, _⟩ => ⟨S256x512x600, .f32⟩
  | .hbm, ⟨19, _⟩ => ⟨S1x1x600, .f32⟩
  | .hbm, ⟨20, _⟩ => ⟨S256x512x600, .f32⟩
  | .hbm, ⟨21, _⟩ => ⟨S256x512x600, .f32⟩
  | .hbm, ⟨22, _⟩ => ⟨S_, .f32⟩
  | .hbm, ⟨23, _⟩ => ⟨S256x512x600, .f32⟩
  | .hbm, ⟨24, _⟩ => ⟨S256x512x600, .f32⟩
  | .hbm, ⟨25, _⟩ => ⟨S256x512x600, .f32⟩
  | .hbm, ⟨26, _⟩ => ⟨S256x512x600, .f32⟩
  | .hbm, ⟨27, _⟩ => ⟨S_, .f32⟩
  | .hbm, ⟨28, _⟩ => ⟨S256x600, .f32⟩
  | .hbm, ⟨29, _⟩ => ⟨S256x1, .i32⟩
  | .hbm, ⟨30, _⟩ => ⟨S256x1, .f32⟩
  | .hbm, ⟨31, _⟩ => ⟨S256x600, .f32⟩
  | .hbm, ⟨32, _⟩ => ⟨S256x600, .f32⟩
  | .hbm, ⟨33, _⟩ => ⟨S256x300, .f32⟩
  | .hbm, ⟨34, _⟩ => ⟨S1x300, .f32⟩
  | .hbm, ⟨35, _⟩ => ⟨S256x300, .f32⟩
  | .hbm, ⟨36, _⟩ => ⟨S256x300, .f32⟩
  | .hbm, ⟨37, _⟩ => ⟨S256x300, .f32⟩
  | .hbm, ⟨38, _⟩ => ⟨S256x300, .f32⟩
  | .hbm, ⟨39, _⟩ => ⟨S_, .f32⟩
  | .hbm, ⟨40, _⟩ => ⟨S256x300, .f32⟩
  | .hbm, ⟨41, _⟩ => ⟨S256x300, .f32⟩
  | .hbm, ⟨42, _⟩ => ⟨S_, .f32⟩
  | .hbm, ⟨43, _⟩ => ⟨S256x300, .f32⟩
  | .hbm, ⟨44, _⟩ => ⟨S256x300, .f32⟩
  | .hbm, ⟨45, _⟩ => ⟨S256x300, .f32⟩
  | _, _ => ⟨S256x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S512_S1x512_1 : S512.BroadcastsInDim S1x512 (![1] : Fin 1 → Fin S1x512.rank)
  bcast_S256_S256x1_0 : S256.BroadcastsInDim S256x1 (![0] : Fin 1 → Fin S256x1.rank)
  bcast_S1x512_S256x512_0_1 : S1x512.BroadcastsInDim S256x512 (![0, 1] : Fin 2 → Fin S256x512.rank)
  bcast_S256x1_S256x512_0_1 : S256x1.BroadcastsInDim S256x512 (![0, 1] : Fin 2 → Fin S256x512.rank)
  bcast_S256x512_S256x512x1_0_1 : S256x512.BroadcastsInDim S256x512x1 (![0, 1] : Fin 2 → Fin S256x512x1.rank)
  bcast_S600_S1x1x600_2 : S600.BroadcastsInDim S1x1x600 (![2] : Fin 1 → Fin S1x1x600.rank)
  bcast_S1x1x600_S256x512x600_0_1_2 : S1x1x600.BroadcastsInDim S256x512x600 (![0, 1, 2] : Fin 3 → Fin S256x512x600.rank)
  bcast_S_S256x512x600 : S_.BroadcastsInDim S256x512x600 (![] : Fin 0 → Fin S256x512x600.rank)
  bcast_S256x512x1_S256x512x600_0_1_2 : S256x512x1.BroadcastsInDim S256x512x600 (![0, 1, 2] : Fin 3 → Fin S256x512x600.rank)
  reducesTo_S256x512x600_S256x600_d1 : S256x512x600.ReducesTo [1] S256x600
  h_S_ : 0 < S_.numel
  bcast_S256x1_S256x600_0_1 : S256x1.BroadcastsInDim S256x600 (![0, 1] : Fin 2 → Fin S256x600.rank)
  bcast_S300_S1x300_1 : S300.BroadcastsInDim S1x300 (![1] : Fin 1 → Fin S1x300.rank)
  bcast_S1x300_S256x300_0_1 : S1x300.BroadcastsInDim S256x300 (![0, 1] : Fin 2 → Fin S256x300.rank)
  bcast_S_S256x300 : S_.BroadcastsInDim S256x300 (![] : Fin 0 → Fin S256x300.rank)
  dot_S256x512x300_S300x600_S256x512x600_2_0_01_1_n_n_wf : DotDims.WF S256x512x300 S300x600 S256x512x600 [2] [0] [0, 1] [1] [] []
  dot_S256x600_S600x300_S256x300_1_0_0_1_n_n_wf : DotDims.WF S256x600 S600x300 S256x300 [1] [0] [0] [1] [] []

variable [Facts₀]

def dot_S256x512x300_S300x600_S256x512x600_2_0_01_1_n_n : DotDims S256x512x300 S300x600 S256x512x600 where
  lhsContracting := [2]
  rhsContracting := [0]
  lhsNonContracting := [0, 1]
  rhsNonContracting := [1]
  lhsBatch := []
  rhsBatch := []
  wf := dot_S256x512x300_S300x600_S256x512x600_2_0_01_1_n_n_wf
def dot_S256x600_S600x300_S256x300_1_0_0_1_n_n : DotDims S256x600 S600x300 S256x300 where
  lhsContracting := [1]
  rhsContracting := [0]
  lhsNonContracting := [0]
  rhsNonContracting := [1]
  lhsBatch := []
  rhsBatch := []
  wf := dot_S256x600_S600x300_S256x300_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The gated ragged mean-pool, as one function of the argument arrays

For a batch row `b`, a token `l`, and a hidden unit `h` the per-token layer is
`relu (∑ c, ctx[b,l,c] · W1[c,h] + b1[h])`; the tokens are summed under the mask `l < len b`
(`len b = max (lengths b) 1`), the sum is divided by `len b`, and a second dense layer followed by the
logistic gate multiplies `x[b,j]`.

Two spellings of that function are stated here over the extended reals:

* `viaReciprocal`: the masked sum times the reciprocal `1 / len b`, the gate by the logistic function;
* `viaQuotient`: the masked sum (from the zero) divided by `len b`, the gate spelled
  `1 / (1 + exp (-z))`.

`viaReciprocal_eq_viaQuotient` says they agree as soon as every `len b` is a nonzero real: for a real
`y ≠ 0` and any extended real `P`, `P / y = P · (1 / y)`; no other finiteness is needed, since the logistic
function is by definition the quotient `1 / (1 + exp (-z))`.
-/

noncomputable section

namespace Cert.GatedPool

open Idealize.ShloMosaic Idealize.ShloMosaic.ValueIdx

/-- Arrays of extended reals of rank 1, 2, 3 over literal extents. -/
abbrev A1 (a : ℕ) : Type := FVec Ideal ⟨1, ![a]⟩ .f32
abbrev A2 (a b : ℕ) : Type := FVec Ideal ⟨2, ![a, b]⟩ .f32
abbrev A3 (a b c : ℕ) : Type := FVec Ideal ⟨3, ![a, b, c]⟩ .f32

/-- The word `1.0` of f32 is the real one. -/
theorem one_f32 : Ideal.ofBits .f32 0x3F800000#32 = (1 : EReal) := by
  simp [Ideal.ofBits, Ideal.ieee]
  rw [← EReal.coe_mul, ← EReal.coe_one]
  congr 1
  norm_num

/-- One token's hidden unit: `relu (∑ c, ctx[b,l,c] · W1[c,h] + b1[h])`. -/
def hidden (ctx : A3 256 512 300) (W1 : A2 300 600) (b1 : A1 600) (b : Fin 256) (l : Fin 512) (h : Fin 600) : EReal :=
  max ((∑ c : Fin 300, ctx (ix3 b l c) * W1 (ix2 c h)) + b1 (ix1 h)) 0

/-- The mask at token `l` of row `b`: the comparison word `l < len b` read as a number (0 or 1). -/
def mask (cmp : IVec ⟨2, ![256, 512]⟩ 1) (b : Fin 256) (l : Fin 512) : EReal :=
  FloatOps.uitofp (F := Ideal) .f32 (cmp (ix2 b l))

/-- The length of row `b` as a number. -/
def lenf (lens : IVec ⟨1, ![256]⟩ 32) (b : Fin 256) : EReal :=
  FloatOps.sitofp (F := Ideal) .f32 (lens (ix1 b))

/-- The masked sum over the tokens of row `b`, hidden unit `h`. -/
def pooled (ctx : A3 256 512 300) (W1 : A2 300 600) (b1 : A1 600) (cmp : IVec ⟨2, ![256, 512]⟩ 1)
    (b : Fin 256) (h : Fin 600) : EReal :=
  ∑ l : Fin 512, hidden ctx W1 b1 b l h * mask cmp b l

/-- The gated output with the mean taken by the reciprocal `1 / len b` and the gate by the logistic function. -/
def viaReciprocal (x : A2 256 300) (ctx : A3 256 512 300) (cmp : IVec ⟨2, ![256, 512]⟩ 1) (lens : IVec ⟨1, ![256]⟩ 32)
    (W1 : A2 300 600) (b1 : A1 600) (Wa : A2 600 300) (ba : A1 300) : A2 256 300 := fun i =>
  Ideal.logistic ((∑ h : Fin 600,
      (pooled ctx W1 b1 cmp (i 0) h * Ideal.div (Ideal.ofBits .f32 0x3F800000#32) (lenf lens (i 0))) * Wa (ix2 h (i 1)))
    + ba (ix1 (i 1))) * x i

/-- The gated output with the mean taken by division and the gate spelled `1 / (1 + exp (-z))`. -/
def viaQuotient (x : A2 256 300) (ctx : A3 256 512 300) (cmp : IVec ⟨2, ![256, 512]⟩ 1) (lens : IVec ⟨1, ![256]⟩ 32)
    (W1 : A2 300 600) (b1 : A1 600) (Wa : A2 600 300) (ba : A1 300) : A2 256 300 := fun i =>
  Ideal.div (Ideal.ofBits .f32 0x3F800000#32) (Ideal.ofBits .f32 0x3F800000#32 + Ideal.exp (-((∑ h : Fin 600,
      Ideal.div (Ideal.ofBits .f32 0x00000000#32 + pooled ctx W1 b1 cmp (i 0) h) (lenf lens (i 0)) * Wa (ix2 h (i 1)))
    + ba (ix1 (i 1))))) * x i

/-- For a nonzero real `y`: `P · (1 / y) = (0 + P) / y` on every extended real `P`. -/
theorem mul_recip_eq_div (P : EReal) {y : ℝ} (hy : y ≠ 0) :
    P * Ideal.div (Ideal.ofBits .f32 0x3F800000#32) (y : EReal) = Ideal.div (Ideal.ofBits .f32 0x00000000#32 + P) (y : EReal) := by
  rw [one_f32, Ideal.ofBits_zero_f32, zero_add, Ideal.div_coe hy, Ideal.div_coe hy, one_mul]

/-- The two spellings agree when every length is a nonzero real. -/
theorem viaReciprocal_eq_viaQuotient (x : A2 256 300) (ctx : A3 256 512 300) (cmp : IVec ⟨2, ![256, 512]⟩ 1)
    (lens : IVec ⟨1, ![256]⟩ 32) (W1 : A2 300 600) (b1 : A1 600) (Wa : A2 600 300) (ba : A1 300)
    (hlen : ∀ b : Fin 256, ∃ y : ℝ, y ≠ 0 ∧ lenf lens b = (y : EReal)) :
    viaReciprocal x ctx cmp lens W1 b1 Wa ba = viaQuotient x ctx cmp lens W1 b1 Wa ba := by
  funext i
  obtain ⟨y, hy, e⟩ := hlen (i 0)
  unfold viaReciprocal viaQuotient
  rw [e]
  simp only [mul_recip_eq_div _ hy]
  rw [one_f32]
  rfl

end Cert.GatedPool

end
-- ==== Proof.RefSide.lean ====
import proofs.«149101_j13357348291341_1_alg».proof.Proof.Spec
import proofs.«149101_j13357348291341_1_alg».proof.Proof.Gen.ReferenceIdeal.Read
import Idealize.ShloMosaic.Lib.ValueIdx
import Idealize.ShloMosaic.PureOps.Ideal.Laws

/-!
# The reference, read at an index, is the quotient spelling of the gated ragged mean-pool

At the output index `(b, j)` the reference computes

  `1 / (1 + exp (-(∑ h, ((0 + ∑ l, relu (∑ c, ctx[b,l,c] · W1[c,h] + b1[h]) · [l < len b]) / len b) · Wa[h,j] + ba[j]))) · x[b,j]`

with `len b = max (lengths b) 1` (a signed maximum of 32-bit words) and `[l < len b]` the one-bit comparison read
as 0 or 1. This file reads the reference's operations one at a time at the coordinates of an index and
recognises, in turn, the per-token hidden unit, the mask, the masked sum, the length, and the whole expression.
It also records that `len b`, read as a number, is a nonzero real: a signed maximum with one is at least one.
-/

noncomputable section

namespace Cert.ReferenceIdeal.RefSide

open Cert.ReferenceIdeal Cert.ReferenceIdeal.Read Idealize.ShloMosaic Idealize.ShloMosaic.ValueIdx

/-- The per-token layer at `(b, l, h)`: `relu (∑ c, ctx[b,l,c] · W1[c,h] + b1[h])`. -/
theorem hidden_at (x1 : (⟨S256x512x300, .f32⟩ : BufTy).Contents (Elt Ideal)) (x3 : (⟨S300x600, .f32⟩ : BufTy).Contents (Elt Ideal))
    (x4 : (⟨S600, .f32⟩ : BufTy).Contents (Elt Ideal)) (b : Fin 256) (l : Fin 512) (h : Fin 600) :
    val_main_v14 (F := Ideal) x1 x3 x4 (ix3 b l h) = Cert.GatedPool.hidden x1 x3 x4 b l h := by
  rw [val_main_v14_apply, val_main_v13_apply, val_main_v10_apply, val_main_v12_apply, val_main_v11_apply,
    val_main_call0_v0_apply, val_main_call0_cst_apply]
  have e1 : ∀ c : Fin 300, lidx_main_v10 (ix3 b l h) c = ix3 b l c := fun c => funext fun a => Fin.ext (by
    match a with | ⟨0, _⟩ => rfl | ⟨1, _⟩ => rfl | ⟨2, _⟩ => rfl)
  have e2 : ∀ c : Fin 300, ridx_main_v10 (ix3 b l h) c = ix2 c h := fun c => funext fun a => Fin.ext (by
    match a with | ⟨0, _⟩ => rfl | ⟨1, _⟩ => rfl)
  have e3 : idx_main_v11 (idx_main_v12 (ix3 b l h)) = ix1 h := funext fun a => Fin.ext (by
    match a with | ⟨0, _⟩ => rfl)
  rw [e3]
  simp only [e1, e2]
  unfold Cert.GatedPool.hidden
  simp only [Ideal.maximumf_def, Ideal.addf_def, Ideal.ofBits_def, Ideal.ofBits_zero_f32]

/-- The mask at `(b, l, h)` does not depend on `h`: it is the comparison `l < len b` read as a number. -/
theorem mask_at (x2 : (⟨S256, .i32⟩ : BufTy).Contents (Elt Ideal)) (b : Fin 256) (l : Fin 512) (h : Fin 600) :
    val_main_v15 (F := Ideal) x2 (ix3 b l h) = Cert.GatedPool.mask (val_main_v7 (F := Ideal) x2) b l := by
  rw [val_main_v15_apply, val_main_v9_apply, val_main_v8_apply]
  have e : idx_main_v8 (idx_main_v15 (ix3 b l h)) = ix2 b l := funext fun a => Fin.ext (by
    match a with | ⟨0, _⟩ => rfl | ⟨1, _⟩ => rfl)
  rw [e]
  rfl

/-- The sum over the tokens at `(b, h)`: the zero plus the masked sum of the hidden units. -/
theorem pooled_at (x1 : (⟨S256x512x300, .f32⟩ : BufTy).Contents (Elt Ideal)) (x2 : (⟨S256, .i32⟩ : BufTy).Contents (Elt Ideal))
    (x3 : (⟨S300x600, .f32⟩ : BufTy).Contents (Elt Ideal)) (x4 : (⟨S600, .f32⟩ : BufTy).Contents (Elt Ideal))
    (b : Fin 256) (h : Fin 600) :
    val_main_v17 (F := Ideal) x1 x2 x3 x4 (ix2 b h)
      = Ideal.ofBits .f32 0x00000000#32 + Cert.GatedPool.pooled x1 x3 x4 (val_main_v7 (F := Ideal) x2) b h := by
  rw [val_main_v17_apply, val_main_cst_apply]
  unfold Cert.GatedPool.pooled
  refine congrArg (_ + ·) (Finset.sum_congr rfl fun l _ => ?_)
  have e : idx_main_v17 (ix2 b h) l = ix3 b l h := funext fun a => Fin.ext (by
    match a with | ⟨0, _⟩ => rfl | ⟨1, _⟩ => rfl | ⟨2, _⟩ => rfl)
  rw [e, val_main_v16_apply, hidden_at, mask_at]
  rfl

/-- The divisor at `(b, h)` does not depend on `h`: it is `len b` read as a number. -/
theorem len_at (x2 : (⟨S256, .i32⟩ : BufTy).Contents (Elt Ideal)) (b : Fin 256) (h : Fin 600) :
    val_main_v20 (F := Ideal) x2 (ix2 b h) = Cert.GatedPool.lenf (val_main_v1 (F := Ideal) x2) b := by
  rw [val_main_v20_apply, val_main_v19_apply, val_main_v18_apply]
  have e : idx_main_v18 (idx_main_v20 (ix2 b h)) = ix1 b := funext fun a => Fin.ext (by
    match a with | ⟨0, _⟩ => rfl)
  rw [e]
  rfl

/-- The reference's result is the quotient spelling of the gated mean-pool, with the comparison words
    `l < len b` and the lengths `len b = max (lengths b) 1` as the reference computes them. -/
theorem reference_eq (x0 : (⟨S256x300, .f32⟩ : BufTy).Contents (Elt Ideal)) (x1 : (⟨S256x512x300, .f32⟩ : BufTy).Contents (Elt Ideal)) (x2 : (⟨S256, .i32⟩ : BufTy).Contents (Elt Ideal)) (x3 : (⟨S300x600, .f32⟩ : BufTy).Contents (Elt Ideal)) (x4 : (⟨S600, .f32⟩ : BufTy).Contents (Elt Ideal)) (x5 : (⟨S600x300, .f32⟩ : BufTy).Contents (Elt Ideal)) (x6 : (⟨S300, .f32⟩ : BufTy).Contents (Elt Ideal)) :
    val_main_v32 (F := Ideal) x0 x1 x2 x3 x4 x5 x6 = Cert.GatedPool.viaQuotient x0 x1 (val_main_v7 (F := Ideal) x2) (val_main_v1 (F := Ideal) x2) x3 x4 x5 x6 := by
  funext i
  obtain ⟨b, j, rfl⟩ : ∃ (b : Fin 256) (j : Fin 300), i = ix2 b j := ⟨i 0, i 1, eq_ix2 i⟩
  rw [val_main_v32_apply, val_main_v31_apply, val_main_v30_apply, val_main_cst_1_apply, val_main_v29_apply,
    val_main_v28_apply, val_main_cst_0_apply, val_main_v27_apply, val_main_v26_apply, val_main_v25_apply,
    val_main_v22_apply, val_main_v24_apply, val_main_v23_apply]
  have e1 : ∀ k : Fin 600, lidx_main_v22 (ix2 b j) k = ix2 b k := fun k => funext fun a => Fin.ext (by
    match a with | ⟨0, _⟩ => rfl | ⟨1, _⟩ => rfl)
  have e2 : ∀ k : Fin 600, ridx_main_v22 (ix2 b j) k = ix2 k j := fun k => funext fun a => Fin.ext (by
    match a with | ⟨0, _⟩ => rfl | ⟨1, _⟩ => rfl)
  have e3 : idx_main_v23 (idx_main_v24 (ix2 b j)) = ix1 j := funext fun a => Fin.ext (by
    match a with | ⟨0, _⟩ => rfl)
  rw [e3]
  simp only [e1, e2, val_main_v21_apply, pooled_at, len_at]
  unfold Cert.GatedPool.viaQuotient
  simp only [Ideal.hostDivf_def, Ideal.hostUnary_exp_def, Ideal.hostNegf_def, Ideal.negf_def, Ideal.addf_def,
    Ideal.mulf_def, Ideal.ofBits_def]

/-- A signed maximum with the word one, read as an integer, is at least one. -/
theorem one_le_toInt_maxsi_one (a : BitVec 32) : 1 ≤ (IntOp.maxsi a 1#32).toInt := by
  have h1 : (1#32 : BitVec 32).toInt = 1 := by decide
  unfold IntOp.maxsi
  by_cases h : (1#32 : BitVec 32).slt a = true
  · rw [if_pos h]
    rw [BitVec.slt_iff_toInt_lt, h1] at h
    omega
  · rw [if_neg h, h1]

/-- The length of a row, `max (lengths b) 1`, read as a number is a real that is at least one, hence nonzero. -/
theorem len_real (x2 : (⟨S256, .i32⟩ : BufTy).Contents (Elt Ideal)) (b : Fin 256) :
    ∃ y : ℝ, y ≠ 0 ∧ Cert.GatedPool.lenf (val_main_v1 (F := Ideal) x2) b = (y : EReal) := by
  refine ⟨((IntOp.maxsi (x2 (ix1 b)) 1#32).toInt : ℝ), ?_, ?_⟩
  · have h := one_le_toInt_maxsi_one (x2 (ix1 b))
    have hr : (1 : ℝ) ≤ ((IntOp.maxsi (x2 (ix1 b)) 1#32).toInt : ℝ) := by exact_mod_cast h
    intro h0
    rw [h0] at hr
    norm_num at hr
  · unfold Cert.GatedPool.lenf
    rw [val_main_v1_apply, val_main_v0_apply, val_main_c_apply]
    rfl

end Cert.ReferenceIdeal.RefSide

end
-- ==== Proof.Pieces.lean ====
import proofs.«149101_j13357348291341_1_alg».proof.Proof.Gen.KernelIdeal.Value
import Idealize.ShloMosaic.Lib.Pipeline.Value
import Idealize.ShloMosaic.Lib.ValueIdx
import Idealize.ShloMosaic.Lib.Tactic

/-!
# What one grid point leaves behind, as values

The body keeps a running block `pooled` of shape [128, 600] in a scratch buffer across the eight
token tiles of a batch tile, and writes the [128, 300] output block only at the last tile. Its three
control cases leave:

* first tile: the scratch is reset to zero and then one tile's contribution is added:
  `contribution(zero)`;
* middle tiles: `contribution(previous scratch)`;
* last tile: the same scratch update, and the output block computed from the UPDATED scratch.

Here `contribution acc = acc + (masked relu-layer of the tile, summed over its 64 tokens)` is the body's
second stored value and the output block is its third; both are kept as the body's own pure terms and
are read index by index elsewhere. Every load reads a whole buffer, and every store covers a whole
buffer, so a buffer after the body is exactly the last value stored in it.
-/

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the scratch at the previous scratch plus the tile's contribution. -/
theorem scratch_middle (c : Dev nD) (i : grid0.Coords) (arg2 : Memref sig .tc .vmem S128x64x300 .f32) (harg2 : arg2.IsWhole) (arg3 : Memref sig .tc .vmem S128x64x1 .f32) (harg3 : arg3.IsWhole) (arg4 : Memref sig .tc .vmem S128x300 .f32) (harg4 : arg4.IsWhole) (arg5 : Memref sig .tc .vmem S128x1 .f32) (harg5 : arg5.IsWhole) (arg6 : Memref sig .tc .vmem S300x600 .bf16) (harg6 : arg6.IsWhole) (arg7 : Memref sig .tc .vmem S1x600 .f32) (harg7 : arg7.IsWhole) (arg8 : Memref sig .tc .vmem S600x300 .f32) (harg8 : arg8.IsWhole) (arg9 : Memref sig .tc .vmem S1x300 .f32) (harg9 : arg9.IsWhole) (arg10 : Memref sig .tc .vmem S128x300 .f32) (harg10 : arg10.IsWhole) (arg11 : Memref sig .tc .vmem S128x600 .f32) (harg11 : arg11.IsWhole) (hc0 : ¬cond0_0 i) (hc1 : ¬cond0_1 i) (x0 : Vec F S128x64x300 .f32) (x1 : Vec F S128x64x1 .f32) (x2 : Vec F S128x300 .f32) (x3 : Vec F S128x1 .f32) (x4 : Vec F S300x600 .bf16) (x5 : Vec F S1x600 .f32) (x6 : Vec F S600x300 .f32) (x7 : Vec F S1x300 .f32) (xs0 : Vec F S128x600 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x0 x4 x5 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg11.read_unread,
    View.ld_unit_zero (S := S128x64x300) hz3, View.ld_unit_zero (S := S128x64x1) hz3, View.ld_unit_zero (S := S300x600) hz2,
    View.ld_unit_zero (S := S1x600) hz2, View.ld_unit_zero (S := S128x600) hz2, View.ld_unit_zero (S := S128x300) hz2,
    View.ld_unit_zero (S := S128x1) hz2, View.ld_unit_zero (S := S600x300) hz2, View.ld_unit_zero (S := S1x300) hz2]

/-- The last tile leaves the scratch updated in the same way. -/
theorem scratch_last (c : Dev nD) (i : grid0.Coords) (arg2 : Memref sig .tc .vmem S128x64x300 .f32) (harg2 : arg2.IsWhole) (arg3 : Memref sig .tc .vmem S128x64x1 .f32) (harg3 : arg3.IsWhole) (arg4 : Memref sig .tc .vmem S128x300 .f32) (harg4 : arg4.IsWhole) (arg5 : Memref sig .tc .vmem S128x1 .f32) (harg5 : arg5.IsWhole) (arg6 : Memref sig .tc .vmem S300x600 .bf16) (harg6 : arg6.IsWhole) (arg7 : Memref sig .tc .vmem S1x600 .f32) (harg7 : arg7.IsWhole) (arg8 : Memref sig .tc .vmem S600x300 .f32) (harg8 : arg8.IsWhole) (arg9 : Memref sig .tc .vmem S1x300 .f32) (harg9 : arg9.IsWhole) (arg10 : Memref sig .tc .vmem S128x300 .f32) (harg10 : arg10.IsWhole) (arg11 : Memref sig .tc .vmem S128x600 .f32) (harg11 : arg11.IsWhole) (hc0 : ¬cond0_0 i) (hc1 : cond0_1 i) (x0 : Vec F S128x64x300 .f32) (x1 : Vec F S128x64x1 .f32) (x2 : Vec F S128x300 .f32) (x3 : Vec F S128x1 .f32) (x4 : Vec F S300x600 .bf16) (x5 : Vec F S1x600 .f32) (x6 : Vec F S600x300 .f32) (x7 : Vec F S1x300 .f32) (xs0 : Vec F S128x600 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x0 x4 x5 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread,
    View.ld_unit_zero (S := S128x64x300) hz3, View.ld_unit_zero (S := S128x64x1) hz3, View.ld_unit_zero (S := S300x600) hz2,
    View.ld_unit_zero (S := S1x600) hz2, View.ld_unit_zero (S := S128x600) hz2, View.ld_unit_zero (S := S128x300) hz2,
    View.ld_unit_zero (S := S128x1) hz2, View.ld_unit_zero (S := S600x300) hz2, View.ld_unit_zero (S := S1x300) hz2]

/-- The last tile writes the output block computed from the scratch it has just updated. -/
theorem out_last (c : Dev nD) (i : grid0.Coords) (arg2 : Memref sig .tc .vmem S128x64x300 .f32) (harg2 : arg2.IsWhole) (arg3 : Memref sig .tc .vmem S128x64x1 .f32) (harg3 : arg3.IsWhole) (arg4 : Memref sig .tc .vmem S128x300 .f32) (harg4 : arg4.IsWhole) (arg5 : Memref sig .tc .vmem S128x1 .f32) (harg5 : arg5.IsWhole) (arg6 : Memref sig .tc .vmem S300x600 .bf16) (harg6 : arg6.IsWhole) (arg7 : Memref sig .tc .vmem S1x600 .f32) (harg7 : arg7.IsWhole) (arg8 : Memref sig .tc .vmem S600x300 .f32) (harg8 : arg8.IsWhole) (arg9 : Memref sig .tc .vmem S1x300 .f32) (harg9 : arg9.IsWhole) (arg10 : Memref sig .tc .vmem S128x300 .f32) (harg10 : arg10.IsWhole) (arg11 : Memref sig .tc .vmem S128x600 .f32) (harg11 : arg11.IsWhole) (hc0 : ¬cond0_0 i) (hc1 : cond0_1 i) (x0 : Vec F S128x64x300 .f32) (x1 : Vec F S128x64x1 .f32) (x2 : Vec F S128x300 .f32) (x3 : Vec F S128x1 .f32) (x4 : Vec F S300x600 .bf16) (x5 : Vec F S1x600 .f32) (x6 : Vec F S600x300 .f32) (x7 : Vec F S1x300 .f32) (xs0 : Vec F S128x600 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 (k0_pay2 x0 x4 x5 x1 xs0) x3 x6 x7 x2 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2, View.readCov_unit_zero (S := S128x600) _ hz2]
  simp only [View.readAt_eq_ld, harg2.read_unread, harg3.read_unread, harg4.read_unread, harg5.read_unread, harg6.read_unread, harg7.read_unread, harg8.read_unread, harg9.read_unread, harg11.read_unread,
    View.ld_unit_zero (S := S128x64x300) hz3, View.ld_unit_zero (S := S128x64x1) hz3, View.ld_unit_zero (S := S300x600) hz2,
    View.ld_unit_zero (S := S1x600) hz2, View.ld_unit_zero (S := S128x600) hz2, View.ld_unit_zero (S := S128x300) hz2,
    View.ld_unit_zero (S := S128x1) hz2, View.ld_unit_zero (S := S600x300) hz2, View.ld_unit_zero (S := S1x300) hz2]

/-- The first tile resets the scratch to zero and adds its contribution to that. -/
theorem scratch_first (c : Dev nD) (i : grid0.Coords) (arg2 : Memref sig .tc .vmem S128x64x300 .f32) (harg2 : arg2.IsWhole) (arg3 : Memref sig .tc .vmem S128x64x1 .f32) (harg3 : arg3.IsWhole) (arg4 : Memref sig .tc .vmem S128x300 .f32) (harg4 : arg4.IsWhole) (arg5 : Memref sig .tc .vmem S128x1 .f32) (harg5 : arg5.IsWhole) (arg6 : Memref sig .tc .vmem S300x600 .bf16) (harg6 : arg6.IsWhole) (arg7 : Memref sig .tc .vmem S1x600 .f32) (harg7 : arg7.IsWhole) (arg8 : Memref sig .tc .vmem S600x300 .f32) (harg8 : arg8.IsWhole) (arg9 : Memref sig .tc .vmem S1x300 .f32) (harg9 : arg9.IsWhole) (arg10 : Memref sig .tc .vmem S128x300 .f32) (harg10 : arg10.IsWhole) (arg11 : Memref sig .tc .vmem S128x600 .f32) (harg11 : arg11.IsWhole) (hc0 : cond0_0 i) (hc1 : ¬cond0_1 i) (x0 : Vec F S128x64x300 .f32) (x1 : Vec F S128x64x1 .f32) (x2 : Vec F S128x300 .f32) (x3 : Vec F S128x1 .f32) (x4 : Vec F S300x600 .bf16) (x5 : Vec F S1x600 .f32) (x6 : Vec F S600x300 .f32) (x7 : Vec F S1x300 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 x0 x4 x5 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S128x600) hz2, View.readCov_unit_zero (S := S128x600) _ hz2]
  simp only [View.readAt_eq_ld, harg2.read_unread, harg3.read_unread, harg4.read_unread, harg5.read_unread, harg6.read_unread, harg7.read_unread, harg8.read_unread, harg9.read_unread, harg11.read_unread,
    View.ld_unit_zero (S := S128x64x300) hz3, View.ld_unit_zero (S := S128x64x1) hz3, View.ld_unit_zero (S := S300x600) hz2,
    View.ld_unit_zero (S := S1x600) hz2, View.ld_unit_zero (S := S128x600) hz2, View.ld_unit_zero (S := S128x300) hz2,
    View.ld_unit_zero (S := S128x1) hz2, View.ld_unit_zero (S := S600x300) hz2, View.ld_unit_zero (S := S1x300) hz2]

end Cert.KernelIdeal.Pieces
end
-- ==== Proof.Payload.lean ====
import proofs.«149101_j13357348291341_1_alg».proof.Proof.Gen.KernelIdeal.Value
import Idealize.ShloMosaic.Lib.Pipeline.Value
import Idealize.ShloMosaic.Lib.ValueIdx
import Idealize.ShloMosaic.Lib.ValueLayout
import Idealize.ShloMosaic.PureOps.Ideal.Laws

/-!
# The body's stored values read at an index, over the extended reals

The kernel's body stores three values. Read entry by entry over the extended reals they are:

* the reset value: `0`;
* the scratch update at (batch row `r`, hidden unit `h`): the previous scratch plus
  `∑ l < 64, relu (∑ c < 300, ctx[r,l,c] · W1[c,h] + b1[h]) · valid[r,l]`: the tile is flattened to
  8192 rows (row `64 r + l` is token `l` of batch row `r`), multiplied by `W1`, biased, clamped at zero,
  unflattened, masked, and summed over the token axis;
* the output block at (batch row `r`, feature `j`):
  `logistic (∑ h < 600, (pooled[r,h] · inv[r]) · Wa[h,j] + ba[j]) · x[r,j]`.

A change of float format is the identity here, a matrix product into a zero accumulator is the plain sum over the
contracted axis, and a lane reduction by addition is the plain sum over the reduced axis.
-/

set_option maxRecDepth 16384

noncomputable section

open Idealize.ShloMosaic Idealize.ShloMosaic.TcCoe Idealize.SL.Sem
open Idealize.ShloMosaic.Pipeline (Dat)

namespace Cert.KernelIdeal.Payload

open Cert.KernelIdeal Cert.KernelIdeal.Gen

open Idealize.ShloMosaic.ValueIdx

theorem tokenLayer_lhs0 (i : S8192x600.Idx) (q : dot_S8192x300_S300x600_S8192x600_1_0_0_1_n_n.contr.Idx) : (dot_S8192x300_S300x600_S8192x600_1_0_0_1_n_n.lhsIdx i q 0).val = (i 0).val := by
  unfold DotDims.lhsIdx
  rw [dif_neg (show ¬(0 : Fin S8192x300.rank) ∈ dot_S8192x300_S300x600_S8192x600_1_0_0_1_n_n.lhsBatch by decide), dif_pos (show (0 : Fin S8192x300.rank) ∈ dot_S8192x300_S300x600_S8192x600_1_0_0_1_n_n.lhsNonContracting by decide)]
  rfl
theorem tokenLayer_lhs1 (i : S8192x600.Idx) (q : dot_S8192x300_S300x600_S8192x600_1_0_0_1_n_n.contr.Idx) : (dot_S8192x300_S300x600_S8192x600_1_0_0_1_n_n.lhsIdx i q 1).val = (q ⟨0, by decide⟩).val :=
  dot_S8192x300_S300x600_S8192x600_1_0_0_1_n_n.lhsIdx_val_of_single rfl i q
theorem tokenLayer_rhs0 (i : S8192x600.Idx) (q : dot_S8192x300_S300x600_S8192x600_1_0_0_1_n_n.contr.Idx) : (dot_S8192x300_S300x600_S8192x600_1_0_0_1_n_n.rhsIdx i q 0).val = (q ⟨0, by decide⟩).val :=
  dot_S8192x300_S300x600_S8192x600_1_0_0_1_n_n.rhsIdx_val_of_single rfl i q
theorem tokenLayer_rhs1 (i : S8192x600.Idx) (q : dot_S8192x300_S300x600_S8192x600_1_0_0_1_n_n.contr.Idx) : (dot_S8192x300_S300x600_S8192x600_1_0_0_1_n_n.rhsIdx i q 1).val = (i 1).val := by
  unfold DotDims.rhsIdx
  rw [dif_neg (show ¬(1 : Fin S300x600.rank) ∈ dot_S8192x300_S300x600_S8192x600_1_0_0_1_n_n.rhsBatch by decide), dif_pos (show (1 : Fin S300x600.rank) ∈ dot_S8192x300_S300x600_S8192x600_1_0_0_1_n_n.rhsNonContracting by decide)]
  rfl

/-- The per-token product at flattened row `p`, hidden unit `h`: the sum over the 300 features. -/
theorem tokenLayer_apply (A : FVec Ideal S8192x300 .bf16) (B : FVec Ideal S300x600 .bf16) (p : Fin 8192) (h : Fin 600) :
    matmul dot_S8192x300_S300x600_S8192x600_1_0_0_1_n_n none A B (constant S8192x600 .f32 0x00000000#32) (ix2 p h)
      = ∑ c : Fin 300, A (ix2 p c) * B (ix2 c h) := by
  simp only [matmul]
  rw [Ideal.matmul_constant_zero_apply, ← Equiv.sum_comp (ValueIdx.contrEquiv1 dot_S8192x300_S300x600_S8192x600_1_0_0_1_n_n 300 rfl rfl).symm]
  refine Finset.sum_congr rfl fun k _ => ?_
  have hk := ValueIdx.contrEquiv1_symm_val dot_S8192x300_S300x600_S8192x600_1_0_0_1_n_n 300 rfl rfl k
  have el : dot_S8192x300_S300x600_S8192x600_1_0_0_1_n_n.lhsIdx (ix2 p h) ((ValueIdx.contrEquiv1 dot_S8192x300_S300x600_S8192x600_1_0_0_1_n_n 300 rfl rfl).symm k) = ix2 p k := funext fun a => Fin.ext (by
    match a with
    | ⟨0, _⟩ => exact tokenLayer_lhs0 _ _
    | ⟨1, _⟩ => exact (tokenLayer_lhs1 _ _).trans hk)
  have er : dot_S8192x300_S300x600_S8192x600_1_0_0_1_n_n.rhsIdx (ix2 p h) ((ValueIdx.contrEquiv1 dot_S8192x300_S300x600_S8192x600_1_0_0_1_n_n 300 rfl rfl).symm k) = ix2 k h := funext fun a => Fin.ext (by
    match a with
    | ⟨0, _⟩ => exact (tokenLayer_rhs0 _ _).trans hk
    | ⟨1, _⟩ => exact tokenLayer_rhs1 _ _)
  rw [el, er]

theorem gateLayer_lhs0 (i : S128x300.Idx) (q : dot_S128x600_S600x300_S128x300_1_0_0_1_n_n.contr.Idx) : (dot_S128x600_S600x300_S128x300_1_0_0_1_n_n.lhsIdx i q 0).val = (i 0).val := by
  unfold DotDims.lhsIdx
  rw [dif_neg (show ¬(0 : Fin S128x600.rank) ∈ dot_S128x600_S600x300_S128x300_1_0_0_1_n_n.lhsBatch by decide), dif_pos (show (0 : Fin S128x600.rank) ∈ dot_S128x600_S600x300_S128x300_1_0_0_1_n_n.lhsNonContracting by decide)]
  rfl
theorem gateLayer_lhs1 (i : S128x300.Idx) (q : dot_S128x600_S600x300_S128x300_1_0_0_1_n_n.contr.Idx) : (dot_S128x600_S600x300_S128x300_1_0_0_1_n_n.lhsIdx i q 1).val = (q ⟨0, by decide⟩).val :=
  dot_S128x600_S600x300_S128x300_1_0_0_1_n_n.lhsIdx_val_of_single rfl i q
theorem gateLayer_rhs0 (i : S128x300.Idx) (q : dot_S128x600_S600x300_S128x300_1_0_0_1_n_n.contr.Idx) : (dot_S128x600_S600x300_S128x300_1_0_0_1_n_n.rhsIdx i q 0).val = (q ⟨0, by decide⟩).val :=
  dot_S128x600_S600x300_S128x300_1_0_0_1_n_n.rhsIdx_val_of_single rfl i q
theorem gateLayer_rhs1 (i : S128x300.Idx) (q : dot_S128x600_S600x300_S128x300_1_0_0_1_n_n.contr.Idx) : (dot_S128x600_S600x300_S128x300_1_0_0_1_n_n.rhsIdx i q 1).val = (i 1).val := by
  unfold DotDims.rhsIdx
  rw [dif_neg (show ¬(1 : Fin S600x300.rank) ∈ dot_S128x600_S600x300_S128x300_1_0_0_1_n_n.rhsBatch by decide), dif_pos (show (1 : Fin S600x300.rank) ∈ dot_S128x600_S600x300_S128x300_1_0_0_1_n_n.rhsNonContracting by decide)]
  rfl

/-- The gate's product at batch row `p`, output feature `h`: the sum over the 600 hidden units. -/
theorem gateLayer_apply (A : FVec Ideal S128x600 .f32) (B : FVec Ideal S600x300 .f32) (p : Fin 128) (h : Fin 300) :
    matmul dot_S128x600_S600x300_S128x300_1_0_0_1_n_n none A B (constant S128x300 .f32 0x00000000#32) (ix2 p h)
      = ∑ c : Fin 600, A (ix2 p c) * B (ix2 c h) := by
  simp only [matmul]
  rw [Ideal.matmul_constant_zero_apply, ← Equiv.sum_comp (ValueIdx.contrEquiv1 dot_S128x600_S600x300_S128x300_1_0_0_1_n_n 600 rfl rfl).symm]
  refine Finset.sum_congr rfl fun k _ => ?_
  have hk := ValueIdx.contrEquiv1_symm_val dot_S128x600_S600x300_S128x300_1_0_0_1_n_n 600 rfl rfl k
  have el : dot_S128x600_S600x300_S128x300_1_0_0_1_n_n.lhsIdx (ix2 p h) ((ValueIdx.contrEquiv1 dot_S128x600_S600x300_S128x300_1_0_0_1_n_n 600 rfl rfl).symm k) = ix2 p k := funext fun a => Fin.ext (by
    match a with
    | ⟨0, _⟩ => exact gateLayer_lhs0 _ _
    | ⟨1, _⟩ => exact (gateLayer_lhs1 _ _).trans hk)
  have er : dot_S128x600_S600x300_S128x300_1_0_0_1_n_n.rhsIdx (ix2 p h) ((ValueIdx.contrEquiv1 dot_S128x600_S600x300_S128x300_1_0_0_1_n_n 600 rfl rfl).symm k) = ix2 k h := funext fun a => Fin.ext (by
    match a with
    | ⟨0, _⟩ => exact (gateLayer_rhs0 _ _).trans hk
    | ⟨1, _⟩ => exact gateLayer_rhs1 _ _)
  rw [el, er]

/-- The [128, 64, 300] tile flattened to [8192, 300]: row `64 r + l` is token `l` of batch row `r`. -/
theorem flatten_apply {α : Type} (v : S128x64x300.Idx → α) (r : Fin 128) (l : Fin 64) (cc : Fin 300) (p : Fin 8192) (hp : p.val = 64 * r.val + l.val) :
    shapeCast S8192x300 v shapeCasts_S128x64x300_S8192x300 (ix2 p cc) = v (ix3 r l cc) := by
  refine shapeCast_apply v _ (ix2 p cc) (ix3 r l cc) ?_
  rw [Shape.rowMajor_val_three, Shape.rowMajor_val_two]
  show (r.val * 64 + l.val) * 300 + cc.val = p.val * 300 + cc.val
  rw [hp]; ring

/-- The [8192, 600] result unflattened to [128, 64, 600]. -/
theorem unflatten_apply {α : Type} (v : S8192x600.Idx → α) (r : Fin 128) (l : Fin 64) (h : Fin 600) (p : Fin 8192) (hp : p.val = 64 * r.val + l.val) :
    shapeCast S128x64x600 v shapeCasts_S8192x600_S128x64x600 (ix3 r l h) = v (ix2 p h) := by
  refine shapeCast_apply v _ (ix3 r l h) (ix2 p h) ?_
  rw [Shape.rowMajor_val_three, Shape.rowMajor_val_two]
  show p.val * 600 + h.val = (r.val * 64 + l.val) * 600 + h.val
  rw [hp]; ring

/-- A [1, n] row broadcast down m rows reads its lane. -/
theorem rowBroadcast_apply {α : Type} {m n : ℕ} (v : (⟨2, ![1, n]⟩ : Shape).Idx → α) (hb : (⟨2, ![1, n]⟩ : Shape).Broadcasts ⟨2, ![m, n]⟩)
    (p : Fin m) (h : Fin n) : broadcastTo ⟨2, ![m, n]⟩ v hb (ix2 p h) = v (ix2 0 h) := by
  refine broadcastTo_apply v hb (ix2 p h) (ix2 0 h) fun a => ?_
  match a with
  | ⟨0, _⟩ => show 0 = if (1 : ℕ) = 1 then 0 else _; rw [if_pos rfl]
  | ⟨1, _⟩ =>
    show h.val = if n = 1 then 0 else h.val
    split
    · have := h.isLt; omega
    · rfl

/-- An [m, 1] column broadcast along n lanes reads its row. -/
theorem colBroadcast_apply {α : Type} {m n : ℕ} (v : (⟨2, ![m, 1]⟩ : Shape).Idx → α) (hb : (⟨2, ![m, 1]⟩ : Shape).Broadcasts ⟨2, ![m, n]⟩)
    (p : Fin m) (h : Fin n) : broadcastTo ⟨2, ![m, n]⟩ v hb (ix2 p h) = v (ix2 p 0) := by
  refine broadcastTo_apply v hb (ix2 p h) (ix2 p 0) fun a => ?_
  match a with
  | ⟨0, _⟩ =>
    show p.val = if m = 1 then 0 else p.val
    split
    · have := p.isLt; omega
    · rfl
  | ⟨1, _⟩ => show 0 = if (1 : ℕ) = 1 then 0 else _; rw [if_pos rfl]

/-- The [128, 64, 1] mask column broadcast along the 600 hidden units reads its (row, token). -/
theorem maskBroadcast_apply {α : Type} (v : S128x64x1.Idx → α) (r : Fin 128) (l : Fin 64) (h : Fin 600) :
    broadcastTo S128x64x600 v broadcasts_S128x64x1_S128x64x600 (ix3 r l h) = v (ix3 r l 0) := by
  refine broadcastTo_apply v _ (ix3 r l h) (ix3 r l 0) fun a => ?_
  match a with
  | ⟨0, _⟩ => show r.val = if (128 : ℕ) = 1 then 0 else r.val; rw [if_neg (by decide)]
  | ⟨1, _⟩ => show l.val = if (64 : ℕ) = 1 then 0 else l.val; rw [if_neg (by decide)]
  | ⟨2, _⟩ => show 0 = if (1 : ℕ) = 1 then 0 else _; rw [if_pos rfl]

/-- The sum over the 64 tokens of a [128, 64, 600] tile, at (row, hidden unit). -/
theorem tokenSum_apply (v : FVec Ideal S128x64x600 .f32) (r : Fin 128) (h : Fin 600) :
    multiReduction .add [1] S128x600 v 0x00000000#32 reduces_S128x64x600_S128x600 (.inl rfl) rfl (ix2 r h)
      = ∑ l : Fin 64, v (ix3 r l h) := by
  refine (Ideal.multiReduction_add_single v _ reduces_S128x64x600_S128x600 (.inl rfl) rfl (ix2 r h)).trans ?_
  refine Finset.sum_congr rfl fun l _ => congrArg v ?_
  funext a
  match a with
  | ⟨0, _⟩ => rfl
  | ⟨1, _⟩ => rfl
  | ⟨2, _⟩ => rfl

/-- The value the first tile resets the scratch to: zero everywhere. -/
theorem zero_apply (j : S128x600.Idx) : k0_pay1 (F := Ideal) j = 0 := by
  unfold k0_pay1
  rw [shapeCast_self]
  exact Ideal.ofBits_zero_f32

/-- THE SCRATCH UPDATE at (batch row `r` of the tile, hidden unit `h`): the previous scratch plus the sum over the
    tile's 64 tokens of `relu (∑ c, ctx[r,l,c] · W1[c,h] + b1[h]) · valid[r,l]`. -/
theorem contribution_apply (ctx : Vec Ideal S128x64x300 .f32) (W1 : Vec Ideal S300x600 .bf16) (b1 : Vec Ideal S1x600 .f32)
    (valid : Vec Ideal S128x64x1 .f32) (acc : Vec Ideal S128x600 .f32) (r : Fin 128) (h : Fin 600) :
    k0_pay2 ctx W1 b1 valid acc (ix2 r h)
      = acc (ix2 r h) + ∑ l : Fin 64, max ((∑ cc : Fin 300, ctx (ix3 r l cc) * W1 (ix2 cc h)) + b1 (ix2 0 h)) 0 * valid (ix3 r l 0) := by
  unfold k0_pay2
  rw [shapeCast_self]
  refine congrArg (acc (ix2 r h) + ·) ?_
  refine (tokenSum_apply _ r h).trans ?_
  refine Finset.sum_congr rfl fun l _ => ?_
  have hp : (64 * r.val + l.val) < 8192 := by have := r.isLt; have := l.isLt; omega
  refine congrArg₂ (· * ·) ?_ ?_
  · refine (unflatten_apply _ r l h ⟨64 * r.val + l.val, hp⟩ rfl).trans ?_
    refine congrArg₂ max ?_ Ideal.ofBits_zero_f32
    refine congrArg₂ (· + ·) ?_ ?_
    · refine (tokenLayer_apply _ _ ⟨64 * r.val + l.val, hp⟩ h).trans ?_
      refine Finset.sum_congr rfl fun cc _ => ?_
      refine congrArg₂ (· * ·) ?_ ?_
      · exact flatten_apply ctx r l cc ⟨64 * r.val + l.val, hp⟩ rfl
      · rw [shapeCast_self]
    · refine (rowBroadcast_apply _ _ _ h).trans ?_
      rw [shapeCast_self]
  · refine (maskBroadcast_apply _ r l h).trans ?_
    rw [shapeCast_self]

/-- THE OUTPUT BLOCK at (batch row `r` of the tile, feature `j`): the logistic gate of
    `∑ h, (pooled[r,h] · inv[r]) · Wa[h,j] + ba[j]`, times `x[r,j]`. -/
theorem gated_apply (pooled : Vec Ideal S128x600 .f32) (inv : Vec Ideal S128x1 .f32) (Wa : Vec Ideal S600x300 .f32)
    (ba : Vec Ideal S1x300 .f32) (x : Vec Ideal S128x300 .f32) (r : Fin 128) (j : Fin 300) :
    k0_pay3 pooled inv Wa ba x (ix2 r j)
      = Ideal.logistic ((∑ h : Fin 600, (pooled (ix2 r h) * inv (ix2 r 0)) * Wa (ix2 h j)) + ba (ix2 0 j)) * x (ix2 r j) := by
  unfold k0_pay3
  refine congrArg (· * x (ix2 r j)) ?_
  refine congrArg Ideal.logistic ?_
  refine congrArg₂ (· + ·) ?_ ?_
  · refine (gateLayer_apply _ _ r j).trans ?_
    refine Finset.sum_congr rfl fun h _ => ?_
    refine congrArg (· * Wa (ix2 h j)) ?_
    refine congrArg (pooled (ix2 r h) * ·) ?_
    refine (colBroadcast_apply _ _ r h).trans ?_
    rw [shapeCast_self]
  · refine (rowBroadcast_apply _ _ r j).trans ?_
    rw [shapeCast_self]

end Cert.KernelIdeal.Payload
end
-- ==== Proof.Blocks.lean ====
import proofs.«149101_j13357348291341_1_alg».proof.Proof.Gen.KernelIdeal.Value
import Idealize.ShloMosaic.Lib.Pipeline.Value
import Idealize.ShloMosaic.Lib.ValueIdx
import Idealize.ShloMosaic.Lib.ValueLayout
import Idealize.ShloMosaic.Lib.Tactic

/-!
# What the region finds, and what each grid point is handed

Before the region the host prepares, from the integer lengths, the clamped lengths `len b = max (lengths b) 1`,
the mask `[l < len b]` as a [256, 512, 1] array of zeros and ones, and the reciprocal column `1 / len b` of shape
[256, 1]; it lays the two biases out as rows and narrows the first weight (a change of format, which is the identity
over the extended reals). This file reads those arrays at an index, and reads the block of each operand that grid
point `t` (batch tile `t / 8`, token tile `t % 8`) is handed at an index of the whole array.
-/

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

open Idealize.ShloMosaic.ValueIdx
variable (m : (ℓ : Loc nD τ sig) → Buf (Elt F) ℓ)

/-! ## The host's preparation: lengths, mask, reciprocal -/

/-- The clamped lengths `max (lengths b) 1`, as words. -/
def lens (x2 : (⟨S256, .i32⟩ : BufTy).Contents (Elt F)) : (⟨S256, .i32⟩ : BufTy).Contents (Elt F) :=
  maxsi x2 (broadcastInDim S256 ![] bcast_S_S256 (constantI S_ 32 1#32))

/-- The comparison `l < len b` at every (row, token), as one-bit words. -/
def cmp (x2 : (⟨S256, .i32⟩ : BufTy).Contents (Elt F)) : (⟨S256x512, .i1⟩ : BufTy).Contents (Elt F) :=
  cmpi .slt
    (broadcastInDim S256x512 ![0, 1] bcast_S1x512_S256x512_0_1 (broadcastInDim S1x512 ![1] bcast_S512_S1x512_1 (iotaInDim S512 32 0)))
    (broadcastInDim S256x512 ![0, 1] bcast_S256x1_S256x512_0_1 (broadcastInDim S256x1 ![0] bcast_S256_S256x1_0 (lens (F := F) x2)))

/-- The mask array the region finds: the comparison as numbers, with a trailing unit axis. -/
theorem V_valid (c : Dev nD) : (V m c main_v9 : S256x512x1.Idx → F .f32)
    = broadcastInDim S256x512x1 ![0, 1] bcast_S256x512_S256x512x1_0_1 (uitofp .f32 (cmp (F := F) (m ((c : Thread nD τ).loc main_arg2)))) := by
  dsimp only [Gen.V, Gen.hostOps0]
  after_results
  rfl

/-- The reciprocal-length column the region finds: `1 / len b`. -/
theorem V_inv (c : Dev nD) : (V m c main_v13 : S256x1.Idx → F .f32)
    = broadcastInDim S256x1 ![0] bcast_S256_S256x1_0 (Host.divf (broadcastInDim S256 ![] bcast_S_S256 (constant (F := F) S_ .f32 0x3F800000#32))
        (sitofp .f32 (lens (F := F) (m ((c : Thread nD τ).loc main_arg2))))) := by
  dsimp only [Gen.V, Gen.hostOps0]
  after_results
  rfl

/-- The first bias as the region finds it: a [1, 600] row. -/
theorem V_b1 (c : Dev nD) : (V m c main_v14 : S1x600.Idx → F .f32)
    = shapeCast S1x600 (m ((c : Thread nD τ).loc main_arg4)) shapeCasts_S600_S1x600 := by
  dsimp only [Gen.V, Gen.hostOps0]
  after_results
  rfl

/-- The second bias as the region finds it: a [1, 300] row. -/
theorem V_ba (c : Dev nD) : (V m c main_v15 : S1x300.Idx → F .f32)
    = shapeCast S1x300 (m ((c : Thread nD τ).loc main_arg6)) shapeCasts_S300_S1x300 := by
  dsimp only [Gen.V, Gen.hostOps0]
  after_results
  rfl

/-- The first weight as the region finds it: narrowed to bf16. -/
theorem V_W1 (c : Dev nD) : (V m c main_v16 : S300x600.Idx → F .bf16)
    = truncf .bf16 (m ((c : Thread nD τ).loc main_arg3)) bitsLt_bf16_f32 := by
  dsimp only [Gen.V, Gen.hostOps0]
  after_results

/-! ## The arrays the region finds, read at an index -/

/-- The mask at (row `B`, token `L`) is the comparison word read as a number. -/
theorem valid_apply (c : Dev nD) (B : Fin 256) (L : Fin 512) :
    (V m c main_v9 : S256x512x1.Idx → F .f32) (ix3 B L 0)
      = FloatOps.uitofp .f32 (cmp (F := F) (m ((c : Thread nD τ).loc main_arg2)) (ix2 B L)) := by
  rw [V_valid]
  exact broadcastInDim_apply _ bcast_S256x512_S256x512x1_0_1 _ (ix3 B L 0) (ix2 B L) (fun a => match a with
    | ⟨0, _⟩ => by show B.val = if (256 : Nat) = 1 then 0 else B.val; rw [if_neg (by decide)]
    | ⟨1, _⟩ => by show L.val = if (512 : Nat) = 1 then 0 else L.val; rw [if_neg (by decide)])

/-- The reciprocal column at row `B` is `1 / len B`. -/
theorem inv_apply (c : Dev nD) (B : Fin 256) :
    (V m c main_v13 : S256x1.Idx → F .f32) (ix2 B 0)
      = FloatOps.hostDivf (FloatOps.ofBits .f32 0x3F800000#32) (FloatOps.sitofp .f32 (lens (F := F) (m ((c : Thread nD τ).loc main_arg2)) (ix1 B))) := by
  rw [V_inv]
  refine (broadcastInDim_apply _ bcast_S256_S256x1_0 _ (ix2 B 0) (ix1 B) (fun a => match a with
    | ⟨0, _⟩ => by show B.val = if (256 : Nat) = 1 then 0 else B.val; rw [if_neg (by decide)])).trans ?_
  rfl

/-- The [1, 600] bias row at lane `h` is `b1 h`. -/
theorem b1_apply (c : Dev nD) (h : Fin 600) :
    (V m c main_v14 : S1x600.Idx → F .f32) (ix2 0 h) = m ((c : Thread nD τ).loc main_arg4) (ix1 h) := by
  rw [V_b1]
  refine shapeCast_apply _ _ (ix2 0 h) (ix1 h) ?_
  rw [Shape.rowMajor_val_two, Shape.rowMajor_val_one]
  show h.val = 0 * 600 + h.val
  omega

/-- The [1, 300] bias row at lane `j` is `ba j`. -/
theorem ba_apply (c : Dev nD) (j : Fin 300) :
    (V m c main_v15 : S1x300.Idx → F .f32) (ix2 0 j) = m ((c : Thread nD τ).loc main_arg6) (ix1 j) := by
  rw [V_ba]
  refine shapeCast_apply _ _ (ix2 0 j) (ix1 j) ?_
  rw [Shape.rowMajor_val_two, Shape.rowMajor_val_one]
  show j.val = 0 * 300 + j.val
  omega

/-! ## The blocks the body is handed at a grid point

Point `t` of the 2 × 8 grid is batch tile `t / 8`, token tile `t % 8`: the context and mask blocks are rows
`128 (t / 8) + r`, tokens `64 (t % 8) + l`; `x` and the reciprocal column move with the batch tile only; the
weights and biases are whole. -/

theorem idx_facts : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = 0)
    ∧ (win0_3.index t 0 = t.val / 8 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val / 8 ∧ win0_8.index t 1 = 0) :=
  (by decide +kernel : ∀ t : Fin grid0.N, _)

theorem ctxBlock_apply (c : Dev nD) (t : Fin cfg0.N) (r : Fin 128) (l : Fin 64) (cc : Fin 300) (B : Fin 256) (L : Fin 512)
    (hB : B.val = 128 * (t.val / 8) + r.val) (hL : L.val = 64 * (t.val % 8) + l.val) :
    (iblk m c 0 t : Vec F S128x64x300 .f32) (ix3 r l cc) = V m c main_arg1 (ix3 B L cc) := by
  have hi := (idx_facts t).1
  unfold iblk
  rw [View.read_apply]
  show V m c main_arg1 _ = V m c main_arg1 _
  congr 1
  funext a
  apply Fin.ext
  match a with
  | ⟨0, _⟩ => show win0_0.index t 0 * 128 + 1 * r.val = B.val; rw [hi.1, hB]; omega
  | ⟨1, _⟩ => show win0_0.index t 1 * 64 + 1 * l.val = L.val; rw [hi.2.1, hL]; omega
  | ⟨2, _⟩ => show win0_0.index t 2 * 300 + 1 * cc.val = cc.val; rw [hi.2.2]; omega

theorem validBlock_apply (c : Dev nD) (t : Fin cfg0.N) (r : Fin 128) (l : Fin 64) (B : Fin 256) (L : Fin 512)
    (hB : B.val = 128 * (t.val / 8) + r.val) (hL : L.val = 64 * (t.val % 8) + l.val) :
    (iblk m c 1 t : Vec F S128x64x1 .f32) (ix3 r l 0) = V m c main_v9 (ix3 B L 0) := by
  have hi := (idx_facts t).2.1
  unfold iblk
  rw [View.read_apply]
  show V m c main_v9 _ = V m c main_v9 _
  congr 1
  funext a
  apply Fin.ext
  match a with
  | ⟨0, _⟩ => show win0_1.index t 0 * 128 + 1 * r.val = B.val; rw [hi.1, hB]; omega
  | ⟨1, _⟩ => show win0_1.index t 1 * 64 + 1 * l.val = L.val; rw [hi.2.1, hL]; omega
  | ⟨2, _⟩ => show win0_1.index t 2 * 1 + 1 * 0 = 0; rw [hi.2.2]

theorem xBlock_apply (c : Dev nD) (t : Fin cfg0.N) (r : Fin 128) (j : Fin 300) (B : Fin 256)
    (hB : B.val = 128 * (t.val / 8) + r.val) :
    (iblk m c 2 t : Vec F S128x300 .f32) (ix2 r j) = V m c main_arg0 (ix2 B j) := by
  have hi := (idx_facts t).2.2.1
  unfold iblk
  rw [View.read_apply]
  show V m c main_arg0 _ = V m c main_arg0 _
  congr 1
  funext a
  apply Fin.ext
  match a with
  | ⟨0, _⟩ => show win0_2.index t 0 * 128 + 1 * r.val = B.val; rw [hi.1, hB]; omega
  | ⟨1, _⟩ => show win0_2.index t 1 * 300 + 1 * j.val = j.val; rw [hi.2]; omega

theorem invBlock_apply (c : Dev nD) (t : Fin cfg0.N) (r : Fin 128) (B : Fin 256)
    (hB : B.val = 128 * (t.val / 8) + r.val) :
    (iblk m c 3 t : Vec F S128x1 .f32) (ix2 r 0) = V m c main_v13 (ix2 B 0) := by
  have hi := (idx_facts t).2.2.2.1
  unfold iblk
  rw [View.read_apply]
  show V m c main_v13 _ = V m c main_v13 _
  congr 1
  funext a
  apply Fin.ext
  match a with
  | ⟨0, _⟩ => show win0_3.index t 0 * 128 + 1 * r.val = B.val; rw [hi.1, hB]; omega
  | ⟨1, _⟩ => show win0_3.index t 1 * 1 + 1 * 0 = 0; rw [hi.2]

theorem W1Block_apply (c : Dev nD) (t : Fin cfg0.N) (cc : Fin 300) (h : Fin 600) :
    (iblk m c 4 t : Vec F S300x600 .bf16) (ix2 cc h) = V m c main_v16 (ix2 cc h) := by
  have hi := (idx_facts t).2.2.2.2.1
  unfold iblk
  rw [View.read_apply]
  show V m c main_v16 _ = V m c main_v16 _
  congr 1
  funext a
  apply Fin.ext
  match a with
  | ⟨0, _⟩ => show win0_4.index t 0 * 300 + 1 * cc.val = cc.val; rw [hi.1]; omega
  | ⟨1, _⟩ => show win0_4.index t 1 * 600 + 1 * h.val = h.val; rw [hi.2]; omega

theorem b1Block_apply (c : Dev nD) (t : Fin cfg0.N) (h : Fin 600) :
    (iblk m c 5 t : Vec F S1x600 .f32) (ix2 0 h) = V m c main_v14 (ix2 0 h) := by
  have hi := (idx_facts t).2.2.2.2.2.1
  unfold iblk
  rw [View.read_apply]
  show V m c main_v14 _ = V m c main_v14 _
  congr 1
  funext a
  apply Fin.ext
  match a with
  | ⟨0, _⟩ => show win0_5.index t 0 * 1 + 1 * 0 = 0; rw [hi.1]
  | ⟨1, _⟩ => show win0_5.index t 1 * 600 + 1 * h.val = h.val; rw [hi.2]; omega

theorem WaBlock_apply (c : Dev nD) (t : Fin cfg0.N) (h : Fin 600) (j : Fin 300) :
    (iblk m c 6 t : Vec F S600x300 .f32) (ix2 h j) = V m c main_arg5 (ix2 h j) := by
  have hi := (idx_facts t).2.2.2.2.2.2.1
  unfold iblk
  rw [View.read_apply]
  show V m c main_arg5 _ = V m c main_arg5 _
  congr 1
  funext a
  apply Fin.ext
  match a with
  | ⟨0, _⟩ => show win0_6.index t 0 * 600 + 1 * h.val = h.val; rw [hi.1]; omega
  | ⟨1, _⟩ => show win0_6.index t 1 * 300 + 1 * j.val = j.val; rw [hi.2]; omega

theorem baBlock_apply (c : Dev nD) (t : Fin cfg0.N) (j : Fin 300) :
    (iblk m c 7 t : Vec F S1x300 .f32) (ix2 0 j) = V m c main_v15 (ix2 0 j) := by
  have hi := (idx_facts t).2.2.2.2.2.2.2.1
  unfold iblk
  rw [View.read_apply]
  show V m c main_v15 _ = V m c main_v15 _
  congr 1
  funext a
  apply Fin.ext
  match a with
  | ⟨0, _⟩ => show win0_7.index t 0 * 1 + 1 * 0 = 0; rw [hi.1]
  | ⟨1, _⟩ => show win0_7.index t 1 * 300 + 1 * j.val = j.val; rw [hi.2]; omega

end Cert.KernelIdeal.Blocks
end
-- ==== Proof.KernelValue.lean ====
import proofs.«149101_j13357348291341_1_alg».proof.Proof.Spec
import proofs.«149101_j13357348291341_1_alg».proof.Proof.Pieces
import proofs.«149101_j13357348291341_1_alg».proof.Proof.Payload
import proofs.«149101_j13357348291341_1_alg».proof.Proof.Blocks
import proofs.«149101_j13357348291341_1_alg».proof.Proof.Gen.KernelIdeal.Value
import Idealize.ShloMosaic.Lib.Pipeline.Value
import Idealize.ShloMosaic.Lib.ValueIdx
import Idealize.ShloMosaic.PureOps.Ideal.Laws

/-!
# The kernel's result array is the gated mean-pool of its arguments

The grid is 2 batch tiles × 8 token tiles; point `n` is batch tile `n / 8`, token tile `n % 8`. The scratch carried
between points holds, after point `n`, the masked hidden units of its batch rows summed over the tokens
`L < 64 (n % 8 + 1)` (`scratch_eq`, by induction on the point: the first token tile starts from zero, each later
one adds its 64 tokens to what the point before left). After the last token tile that is the sum over all 512
tokens (`scratch_full`), and the block written back there is the gate of that sum times the reciprocal length, times
`x` (`gate_entry`). Those blocks are the rows `128 (n / 8) + r` of one whole-array function of the arguments
(`flushed_eq`), and the two writing points cover every row (`covered`), so the result array ends holding that
function (`final`, `run`).
-/

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Blocks Cert.KernelIdeal.Payload Cert.KernelIdeal.Pieces
open Idealize.ShloMosaic.ValueIdx

variable (m : (ℓ : Loc nD τ sig) → Buf (Elt Ideal) ℓ)

/-- One token's masked hidden unit of row `B`, as a sequence in the token position (zero past the 512 tokens). -/
def tokenTerm (c : Dev nD) (B : Fin 256) (h : Fin 600) (L : ℕ) : EReal :=
  if hL : L < 512 then
    Cert.GatedPool.hidden (m ((c : Thread nD τ).loc main_arg1)) (m ((c : Thread nD τ).loc main_arg3)) (m ((c : Thread nD τ).loc main_arg4)) B ⟨L, hL⟩ h
      * Cert.GatedPool.mask (cmp (F := Ideal) (m ((c : Thread nD τ).loc main_arg2))) B ⟨L, hL⟩
  else 0

/-- What token tile `k` adds at hidden unit `h` for a batch row whose context, mask, weight and bias entries are
    those of row `B` at the tokens `64 k + l`: the 64 masked hidden units of row `B` at those tokens. -/
theorem tile_contribution (c : Dev nD) (k : ℕ) (hk : k < 8) (r : Fin 128) (h : Fin 600) (B : Fin 256)
    (x0 : Vec Ideal S128x64x300 .f32) (x4 : Vec Ideal S300x600 .bf16) (x5 : Vec Ideal S1x600 .f32) (x1 : Vec Ideal S128x64x1 .f32)
    (e0 : ∀ (l : Fin 64) (cc : Fin 300) (hL : 64 * k + l.val < 512),
      x0 (ix3 r l cc) = m ((c : Thread nD τ).loc main_arg1) (ix3 B ⟨64 * k + l.val, hL⟩ cc))
    (e4 : ∀ (cc : Fin 300), x4 (ix2 cc h) = m ((c : Thread nD τ).loc main_arg3) (ix2 cc h))
    (e5 : x5 (ix2 0 h) = m ((c : Thread nD τ).loc main_arg4) (ix1 h))
    (e1 : ∀ (l : Fin 64) (hL : 64 * k + l.val < 512),
      x1 (ix3 r l 0) = FloatOps.uitofp (F := Ideal) .f32 (cmp (F := Ideal) (m ((c : Thread nD τ).loc main_arg2)) (ix2 B ⟨64 * k + l.val, hL⟩))) :
    (∑ l : Fin 64, max ((∑ cc : Fin 300, x0 (ix3 r l cc) * x4 (ix2 cc h)) + x5 (ix2 0 h)) 0 * x1 (ix3 r l 0))
      = ∑ x ∈ Finset.range 64, tokenTerm m c B h (64 * k + x) := by
  rw [Finset.sum_range]
  refine Finset.sum_congr rfl fun l _ => ?_
  have hL : 64 * k + l.val < 512 := by have := l.isLt; omega
  unfold tokenTerm
  rw [dif_pos hL]
  unfold Cert.GatedPool.hidden Cert.GatedPool.mask
  rw [e1 l hL, e5]
  refine congrArg (· * _) (congrArg (max · 0) (congrArg (· + _) ?_))
  refine Finset.sum_congr rfl fun cc _ => ?_
  rw [e0 l cc hL, e4 cc]

/-- The blocks grid point `t` is handed are those entries, for `k = t % 8` and row `B = 128 (t / 8) + r`. -/
theorem point_contribution (c : Dev nD) (t : Fin cfg0.N) (r : Fin 128) (h : Fin 600) (B : Fin 256)
    (hB : B.val = 128 * (t.val / 8) + r.val) (x0 : Vec Ideal S128x64x300 .f32) (x4 : Vec Ideal S300x600 .bf16)
    (x5 : Vec Ideal S1x600 .f32) (x1 : Vec Ideal S128x64x1 .f32)
    (h0 : x0 = iblk m c 0 t) (h4 : x4 = iblk m c 4 t) (h5 : x5 = iblk m c 5 t) (h1 : x1 = iblk m c 1 t) :
    (∑ l : Fin 64, max ((∑ cc : Fin 300, x0 (ix3 r l cc) * x4 (ix2 cc h)) + x5 (ix2 0 h)) 0 * x1 (ix3 r l 0))
      = ∑ x ∈ Finset.range 64, tokenTerm m c B h (64 * (t.val % 8) + x) := by
  subst h0 h4 h5 h1
  refine tile_contribution m c (t.val % 8) (Nat.mod_lt _ (by decide)) r h B _ _ _ _ ?_ ?_ ?_ ?_
  · intro l cc hL
    rw [ctxBlock_apply m c t r l cc B ⟨_, hL⟩ hB rfl, V_main_arg1]
  · intro cc
    rw [W1Block_apply, V_W1]
    rfl
  · rw [b1Block_apply, b1_apply]
  · intro l hL
    rw [validBlock_apply m c t r l B ⟨_, hL⟩ hB rfl, valid_apply]

/-- THE RUNNING SUM. After grid point `n` (batch tile `n / 8`, token tile `n % 8`) the scratch holds, at (row `r`,
    hidden unit `h`), the masked hidden units of row `128 (n / 8) + r` summed over the tokens seen so far in this batch
    tile, `L < 64 (n % 8 + 1)`: the first token tile starts from zero, each later one adds its 64 tokens. -/
theorem scratch_eq (c : Dev nD) : ∀ (n : ℕ) (hn : n < cfg0.N) (r : Fin 128) (h : Fin 600) (B : Fin 256)
    (hB : B.val = 128 * (n / 8) + r.val),
    ((outsAt0 m c n hn).2 : Vec Ideal S128x600 .f32) (ix2 r h) = ∑ L ∈ Finset.range (64 * (n % 8 + 1)), tokenTerm m c B h L
  | 0, hn, r, h, B, hB => by
    rw [outsAt0_A m c ⟨0, hn⟩ rfl (by show ¬ 0 % 8 = 7; decide)]
    dsimp only
    rw [scratch_first, contribution_apply, Payload.zero_apply, zero_add,
      point_contribution m c ⟨0, hn⟩ r h B hB _ _ _ _ rfl rfl rfl rfl]
    simp
  | n + 1, hn, r, h, B, hB => by
    have hN : n + 1 < 16 := lt_of_lt_of_eq hn (show cfg0.N = 16 from N_0)
    by_cases h0 : (n + 1) % 8 = 0
    · have h1 : ¬ (n + 1) % 8 = 7 := by omega
      rw [outsAt0_A m c ⟨n + 1, hn⟩ h0 h1]
      dsimp only
      rw [scratch_first, contribution_apply, Payload.zero_apply, zero_add,
        point_contribution m c ⟨n + 1, hn⟩ r h B hB _ _ _ _ rfl rfl rfl rfl]
      show ∑ x ∈ Finset.range 64, tokenTerm m c B h (64 * ((n + 1) % 8) + x) = _
      rw [h0]
      simp
    · have hB' : B.val = 128 * (n / 8) + r.val := by rw [hB]; congr 2; omega
      have IH := scratch_eq c n (Nat.lt_of_succ_lt hn) r h B hB'
      have e : (n + 1) % 8 = n % 8 + 1 := by omega
      have step : ((outsAt0 m c n (Nat.lt_of_succ_lt hn)).2 : Vec Ideal S128x600 .f32) (ix2 r h)
            + ∑ x ∈ Finset.range 64, tokenTerm m c B h (64 * ((n + 1) % 8) + x)
          = ∑ L ∈ Finset.range (64 * ((n + 1) % 8 + 1)), tokenTerm m c B h L := by
        rw [IH, e, show 64 * (n % 8 + 1 + 1) = 64 * (n % 8 + 1) + 64 by ring, Finset.sum_range_add]
      by_cases h1 : (n + 1) % 8 = 7
      · rw [outsAt0_C m c ⟨n + 1, hn⟩ h0 h1]
        dsimp only
        rw [scratch_last, contribution_apply,
          point_contribution m c ⟨n + 1, hn⟩ r h B hB _ _ _ _ rfl rfl rfl rfl]
        exact step
      · rw [outsAt0_B m c ⟨n + 1, hn⟩ h0 h1]
        dsimp only
        rw [scratch_middle, contribution_apply,
          point_contribution m c ⟨n + 1, hn⟩ r h B hB _ _ _ _ rfl rfl rfl rfl]
        exact step

/-- THE RESULT ARRAY: the gated mean-pool with the mean taken by the reciprocal, of the argument arrays. -/
def result (c : Dev nD) : Buf (Elt Ideal) ((c : Thread nD τ).loc main_v17) :=
  Cert.GatedPool.viaReciprocal (m ((c : Thread nD τ).loc main_arg0)) (m ((c : Thread nD τ).loc main_arg1))
    (cmp (F := Ideal) (m ((c : Thread nD τ).loc main_arg2))) (lens (F := Ideal) (m ((c : Thread nD τ).loc main_arg2)))
    (m ((c : Thread nD τ).loc main_arg3)) (m ((c : Thread nD τ).loc main_arg4)) (m ((c : Thread nD τ).loc main_arg5))
    (m ((c : Thread nD τ).loc main_arg6))

/-- After the last token tile of a batch tile the scratch holds the whole masked sum over the 512 tokens. -/
theorem scratch_full (c : Dev nD) (t : Fin cfg0.N) (h1 : t.val % 8 = 7) (r : Fin 128) (h : Fin 600) (B : Fin 256)
    (hB : B.val = 128 * (t.val / 8) + r.val) :
    ((outsAt0 m c t.val t.isLt).2 : Vec Ideal S128x600 .f32) (ix2 r h)
      = Cert.GatedPool.pooled (m ((c : Thread nD τ).loc main_arg1)) (m ((c : Thread nD τ).loc main_arg3)) (m ((c : Thread nD τ).loc main_arg4))
          (cmp (F := Ideal) (m ((c : Thread nD τ).loc main_arg2))) B h := by
  rw [scratch_eq m c t.val t.isLt r h B hB, h1, Finset.sum_range]
  unfold Cert.GatedPool.pooled
  refine Finset.sum_congr rfl fun L _ => ?_
  unfold tokenTerm
  rw [dif_pos L.isLt]

/-- The output block as a function of the updated scratch and the point's blocks, at an entry. -/
theorem gate_entry (c : Dev nD) (t : Fin cfg0.N) (h1 : t.val % 8 = 7) (r : Fin 128) (j : Fin 300) (B : Fin 256)
    (hB : B.val = 128 * (t.val / 8) + r.val)
    (P : Vec Ideal S128x600 .f32) (x3 : Vec Ideal S128x1 .f32) (x6 : Vec Ideal S600x300 .f32) (x7 : Vec Ideal S1x300 .f32) (x2 : Vec Ideal S128x300 .f32)
    (hP : P = (outsAt0 m c t.val t.isLt).2) (h3 : x3 = iblk m c 3 t) (h6 : x6 = iblk m c 6 t) (h7 : x7 = iblk m c 7 t) (h2 : x2 = iblk m c 2 t) :
    k0_pay3 P x3 x6 x7 x2 (ix2 r j) = result m c (ix2 B j) := by
  subst hP h3 h6 h7 h2
  rw [gated_apply]
  unfold result Cert.GatedPool.viaReciprocal
  rw [xBlock_apply m c t r j B hB, V_main_arg0, baBlock_apply, ba_apply, invBlock_apply m c t r B hB, inv_apply]
  refine congrArg (· * _) (congrArg Ideal.logistic (congrArg (· + _) ?_))
  refine Finset.sum_congr rfl fun h _ => ?_
  rw [scratch_full m c t h1 r h B hB, WaBlock_apply, V_main_arg5]
  rfl

/-- WHAT A WRITING POINT WRITES BACK: at the last token tile of batch tile `t / 8` the body's output block is the
    result array's rows `128 (t / 8) + r`. -/
theorem flushed_eq (c : Dev nD) (t : Fin cfg0.N) (hf : (cfg0.win 8).flush t = true) :
    (dats m 0 c).flushed 8 t = ((cfg0.win 8).blk t).view.read (Elt Ideal) (result m c) := by
  have hN : t.val < 16 := lt_of_lt_of_eq t.isLt (show cfg0.N = 16 from N_0)
  have h1 : t.val % 8 = 7 := (flush0_8 t).mp hf
  have h0 : ¬ t.val % 8 = 0 := by omega
  have hi := (idx_facts t).2.2.2.2.2.2.2.2
  rw [Value.flushed8_C m c t h0 h1, out_last]
  funext j
  obtain ⟨r, jj, rfl⟩ : ∃ (r : Fin 128) (jj : Fin 300), j = ix2 r jj := ⟨j 0, j 1, eq_ix2 j⟩
  have hBlt : 128 * (t.val / 8) + r.val < 256 := by have := r.isLt; omega
  have hemb : ((cfg0.win 8).blk t).view.emb (ix2 r jj) = ix2 (⟨128 * (t.val / 8) + r.val, hBlt⟩ : Fin 256) jj := by
    funext a
    apply Fin.ext
    match a with
    | ⟨0, _⟩ => show win0_8.index t 0 * 128 + 1 * r.val = 128 * (t.val / 8) + r.val; rw [hi.1]; omega
    | ⟨1, _⟩ => show win0_8.index t 1 * 300 + 1 * jj.val = jj.val; rw [hi.2]; omega
  show (k0_pay3 (F := Ideal) _ _ _ _ _ (ix2 r jj) : EReal) = result m c (((cfg0.win 8).blk t).view.emb (ix2 r jj))
  rw [hemb]
  refine gate_entry m c t h1 r jj ⟨_, hBlt⟩ rfl _ _ _ _ _ ?_ rfl rfl rfl rfl
  rw [outsAt0_C m c t h0 h1]
  dsimp only
  rw [scratch_last]

/-- Every row of the result array is written by the last token tile of its batch tile. -/
theorem covered (c : Dev nD) (i : S256x300.Idx) :
    ∃ t : Fin cfg0.N, (cfg0.win 8).flush t = true ∧ i ∈ ((cfg0.win 8).blk t).view.set := by
  have hi0 : (i 0).val < 256 := (i 0).isLt
  have hi1 : (i 1).val < 300 := (i 1).isLt
  have hlt : 8 * ((i 0).val / 128) + 7 < cfg0.N := by rw [show cfg0.N = 16 from N_0]; omega
  refine ⟨⟨8 * ((i 0).val / 128) + 7, hlt⟩, (flush0_8 _).mpr (by show (8 * ((i 0).val / 128) + 7) % 8 = 7; omega), ?_⟩
  have hi := (idx_facts ⟨8 * ((i 0).val / 128) + 7, hlt⟩).2.2.2.2.2.2.2.2
  show i ∈ ((View.whole main_v17).slice (win0_8.rect ⟨8 * ((i 0).val / 128) + 7, hlt⟩)).set
  rw [View.set_slice_whole, Rect.mem_set_unit]
  intro a
  match a with
  | ⟨0, _⟩ =>
    show win0_8.index ⟨8 * ((i 0).val / 128) + 7, hlt⟩ 0 * 128 ≤ (i 0).val ∧ (i 0).val < win0_8.index ⟨8 * ((i 0).val / 128) + 7, hlt⟩ 0 * 128 + 128
    rw [hi.1]
    show (8 * ((i 0).val / 128) + 7) / 8 * 128 ≤ (i 0).val ∧ (i 0).val < (8 * ((i 0).val / 128) + 7) / 8 * 128 + 128
    omega
  | ⟨1, _⟩ =>
    show win0_8.index ⟨8 * ((i 0).val / 128) + 7, hlt⟩ 1 * 300 ≤ (i 1).val ∧ (i 1).val < win0_8.index ⟨8 * ((i 0).val / 128) + 7, hlt⟩ 1 * 300 + 300
    rw [hi.2]
    omega

/-- So the result array ends holding the gated mean-pool of the argument arrays. -/
theorem final (c : Dev nD) : (dats m 0 c).arrAt 8 cfg0.N = result m c :=
  (dats m 0 c).arrAt_eq_of_cover 8 (result m c) (flushed_eq m c) (covered c)

/-- The kernel's run, read: the result array at the gated mean-pool, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KernelValue
end
-- ==== Proof.lean ====
/-
  The kernel pools a ragged context: for each of 256 batch rows it applies a dense layer with relu to every one of 512
  tokens, sums the hidden units over the tokens `l < len b` (`len b = max (lengths b) 1`), divides by `len b`, and
  gates `x` by the logistic function of a second dense layer. The kernel walks a 2 × 8 grid (batch tiles of 128 rows,
  token tiles of 64 tokens), keeps the running masked sum in a scratch block across the eight token tiles of a batch
  tile, and on the last one multiplies by the host-computed reciprocal `1 / len b` and writes the gated block. The
  reference does the same with whole arrays, dividing by `len b`.

  Over the extended reals the two agree: a sum taken tile by tile is the sum over all tokens (addition is commutative
  and associative there, with no finiteness needed); for the nonzero real `len b`, multiplying by `1 / len b` is
  dividing by `len b`; a change of float format is the identity; and the logistic function is by definition
  `1 / (1 + exp (-z))`, the reference's spelling. The precondition is never opened.

  The three frames are the generated ones (the reference's is its generated run with the result dropped); the ideal
  pass rewrote nothing, so `preserves` is `True`; `algebraic` sets the kernel's run (KernelValue) beside the
  reference's run read at an index (RefSide), joined by the one law of Spec.
-/
import proofs.«149101_j13357348291341_1_alg».proof.Defs
import proofs.«149101_j13357348291341_1_alg».proof.Proof.Gen.Kernel
import proofs.«149101_j13357348291341_1_alg».proof.Proof.Gen.Kernel.Skeleton
import proofs.«149101_j13357348291341_1_alg».proof.Proof.Gen.Kernel.Launch
import proofs.«149101_j13357348291341_1_alg».proof.Proof.Gen.Kernel.Points
import proofs.«149101_j13357348291341_1_alg».proof.Proof.Gen.Kernel.Frame
import proofs.«149101_j13357348291341_1_alg».proof.Proof.Gen.KernelIdeal
import proofs.«149101_j13357348291341_1_alg».proof.Proof.Gen.KernelIdeal.Skeleton
import proofs.«149101_j13357348291341_1_alg».proof.Proof.Gen.KernelIdeal.Launch
import proofs.«149101_j13357348291341_1_alg».proof.Proof.Gen.KernelIdeal.Points
import proofs.«149101_j13357348291341_1_alg».proof.Proof.Gen.KernelIdeal.Frame
import proofs.«149101_j13357348291341_1_alg».proof.Proof.Gen.ReferenceIdeal
import proofs.«149101_j13357348291341_1_alg».proof.Proof.Gen.KernelIdeal.Value
import proofs.«149101_j13357348291341_1_alg».proof.Proof.Gen.ReferenceIdeal.Run
import proofs.«149101_j13357348291341_1_alg».proof.Proof.Gen.ReferenceIdeal.Read
import proofs.«149101_j13357348291341_1_alg».proof.Proof.Gen.Pre_finite_inputs
import proofs.«149101_j13357348291341_1_alg».proof.Proof.Spec
import proofs.«149101_j13357348291341_1_alg».proof.Proof.RefSide
import proofs.«149101_j13357348291341_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The comparison words and the clamped lengths are the same host operations in both programs. -/
theorem cmp_eq (x2 : (⟨Cert.KernelIdeal.S256, .i32⟩ : BufTy).Contents (Elt Ideal)) :
    Cert.KernelIdeal.Blocks.cmp (F := Ideal) x2 = Cert.ReferenceIdeal.Read.val_main_v7 (F := Ideal) x2 := rfl

theorem lens_eq (x2 : (⟨Cert.KernelIdeal.S256, .i32⟩ : BufTy).Contents (Elt Ideal)) :
    Cert.KernelIdeal.Blocks.lens (F := Ideal) x2 = Cert.ReferenceIdeal.Read.val_main_v1 (F := Ideal) x2 := rfl

/-- Both programs end at the gated mean-pool of arguments that agree: the kernel's with the mean by the reciprocal, the
    reference's by the quotient; the two are one function since every clamped length is a nonzero real. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefSide.reference_eq,
    (hagree c).1, (hagree c).2.1, (hagree c).2.2.1, (hagree c).2.2.2.1, (hagree c).2.2.2.2.1, (hagree c).2.2.2.2.2.1,
    (hagree c).2.2.2.2.2.2]
  show _ = Cert.KernelIdeal.KernelValue.result m c
  unfold Cert.KernelIdeal.KernelValue.result
  rw [cmp_eq, lens_eq]
  exact (Cert.GatedPool.viaReciprocal_eq_viaQuotient _ _ _ _ _ _ _ _
    (Cert.ReferenceIdeal.RefSide.len_real _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
